-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_scale" .f32 0x3D3504F3#32 ((524288 / 11863283 : ℝ) : EReal)
  ∧ IdealRules.named_const.Statement Cert.KernelIdeal.κ "inv_scale" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512x512 .f32) (main_arg12 : FVec F S512 .f32) (main_arg13 : FVec F S512x512 .f32) (main_arg14 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S4096x512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x512 : Shape := ⟨2, ![4096, 512]⟩
abbrev S512x512 : Shape := ⟨2, ![512, 512]⟩
abbrev S512 : Shape := ⟨1, ![512]⟩
abbrev S1x512 : Shape := ⟨2, ![1, 512]⟩
abbrev S4096x4096 : Shape := ⟨2, ![4096, 4096]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 25
  | .vmem => 33
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S1x512, .f32⟩
  | .hbm, ⟨16, _⟩ => ⟨S4096x512, .bf16⟩
  | .hbm, ⟨17, _⟩ => ⟨S1x512, .f32⟩
  | .hbm, ⟨18, _⟩ => ⟨S4096x512, .bf16⟩
  | .hbm, ⟨19, _⟩ => ⟨S1x512, .f32⟩
  | .hbm, ⟨20, _⟩ => ⟨S4096x512, .bf16⟩
  | .hbm, ⟨21, _⟩ => ⟨S1x512, .f32⟩
  | .hbm, ⟨22, _⟩ => ⟨S1x512, .f32⟩
  | .hbm, ⟨23, _⟩ => ⟨S4096x512, .f32⟩
  | .hbm, ⟨24, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S512x512, .f32⟩
  | .local _ .vmem, ⟨23, _⟩ => ⟨S1x512, .f32⟩
  | .local _ .vmem, ⟨24, _⟩ => ⟨S512x512, .f32⟩
  | .local _ .vmem, ⟨25, _⟩ => ⟨S1x512, .f32⟩
  | .local _ .vmem, ⟨26, _⟩ => ⟨S4096x512, .bf16⟩
  | .local _ .vmem, ⟨27, _⟩ => ⟨S4096x512, .bf16⟩
  | .local _ .vmem, ⟨28, _⟩ => ⟨S4096x512, .bf16⟩
  | .local _ .vmem, ⟨29, _⟩ => ⟨S256x512, .f32⟩
  | .local _ .vmem, ⟨30, _⟩ => ⟨S256x512, .f32⟩
  | .local _ .vmem, ⟨31, _⟩ => ⟨S256x4096, .f32⟩
  | .local _ .vmem, ⟨32, _⟩ => ⟨S256x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg9_0 : Ref sig .tc := ⟨.vmem, 29, rfl⟩
abbrev cc3_stg9_1 : Ref sig .tc := ⟨.vmem, 30, rfl⟩
abbrev cc3_stg10_0 : Ref sig .tc := ⟨.vmem, 31, rfl⟩
abbrev cc3_stg10_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28
abbrev cc3_sem9_0 : DmaSem sig := 29
abbrev cc3_sem9_1 : DmaSem sig := 30
abbrev cc3_sem10_0 : DmaSem sig := 31
abbrev cc3_sem10_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S4096x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S4096x512 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S4096x512 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S256x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S256x4096 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  packedbf16_S512x512_S512x512_0_0 : (Rect.unit (s := S512x512) ![0, 0] S512x512.size inb_S512x512_S512x512_0_0).PackedRows (EltTy.packing .bf16)
  inb_S256x512_S256x512_0_0 : ∀ a, (![0, 0] : Fin 2 → Nat) a + S256x512.size a ≤ S256x512.size a
  h_S256x512 : 0 < S256x512.numel
  broadcasts_S1x512_S256x512 : S1x512.Broadcasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  dot_S512x512_S512x512_S512x512_1_0_0_1_n_n_wf : DotDims.WF S512x512 S512x512 S512x512 [1] [0] [0] [1] [] []
  dot_S256x512_S512x512_S256x512_1_0_0_1_n_n_wf : DotDims.WF S256x512 S512x512 S256x512 [1] [0] [0] [1] [] []
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .bf16 = 32 ∨ (Rect.block (s := S4096x512) S512x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .f32 = 32 ∨ (Rect.block (s := S4096x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x512.size a
  hwx2_3 : ∀ i : grid2.Coords, EltTy.bits .bf16 = 32 ∨ (Rect.block (s := S4096x512) S512x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x512.size a ≤ S4096x512.size a
  hwx3_0 : ∀ i : grid3.Coords, EltTy.bits .f32 = 32 ∨ (Rect.block (s := S4096x512) S256x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S4096x512.size a
  hwx3_1 : ∀ i : grid3.Coords, EltTy.bits .f32 = 32 ∨ (Rect.block (s := S4096x512) S256x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S4096x512.size a ≤ S4096x512.size a
  hwx3_6 : ∀ i : grid3.Coords, EltTy.bits .bf16 = 32 ∨ (Rect.block (s := S4096x512) S4096x512.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S4096x512.size a ≤ S4096x512.size a
  hwx3_7 : ∀ i : grid3.Coords, EltTy.bits .bf16 = 32 ∨ (Rect.block (s := S4096x512) S4096x512.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S4096x512.size a ≤ S4096x512.size a
  hwx3_8 : ∀ i : grid3.Coords, EltTy.bits .bf16 = 32 ∨ (Rect.block (s := S4096x512) S4096x512.size (cc3_transform_8 i) (hinb3_8 i)).WholeWords (EltTy.packing .bf16)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S256x512.size a ≤ S4096x512.size a
  hwx3_9 : ∀ i : grid3.Coords, EltTy.bits .f32 = 32 ∨ (Rect.block (s := S4096x512) S256x512.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S256x4096.size a ≤ S4096x4096.size a
  hwx3_10 : ∀ i : grid3.Coords, EltTy.bits .f32 = 32 ∨ (Rect.block (s := S4096x4096) S256x4096.size (cc3_transform_10 i) (hinb3_10 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg4) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S256x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S256x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v1) S4096x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v5) S4096x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v3) S4096x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v8_0) S256x512.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v8_1) S256x4096.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S4096x512 : Shape := ⟨2, ![4096, 512]⟩
abbrev S512x512 : Shape := ⟨2, ![512, 512]⟩
abbrev S512 : Shape := ⟨1, ![512]⟩
abbrev S1x512 : Shape := ⟨2, ![1, 512]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x512_S512x512_S4096x512_1_0_0_1_n_n_wf : DotDims.WF S4096x512 S512x512 S4096x512 [1] [0] [0] [1] [] []
  dot_S4096x512_S4096x512_S4096x4096_1_1_0_0_n_n_wf : DotDims.WF S4096x512 S4096x512 S4096x4096 [1] [1] [0] [0] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.KRun.lean ====
/-
  The whole program's run with its two results named.  The program is four kernel regions among host reshapes; at its
  end every buffer outside the kernels' scratch holds the last boundary's contents, so the two result arrays are what
  the last region's write-backs leave (its output windows' arrays after the last grid point), and every argument array
  is as launched.
-/
import proofs.«114069_j30047591203213_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends; at the end the two result arrays hold the last boundary's contents
    and every argument array is as launched. -/
theorem run_results : θ_run defs (onTc (τ := τ) (main (F := F))) ⟨m, fun _ => 0, ρ⟩ (fun r => ∀ c : Dev nD,
      r.2.mem ((c.tc : Thread nD τ).loc main_v8_0) = W8 m ρ c (Proc.devRef .tc main_v8_0)
      ∧ r.2.mem ((c.tc : Thread nD τ).loc main_v8_1) = W8 m ρ c (Proc.devRef .tc main_v8_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v8_0 (by decide)),
       h c _ (mem_uc main_v8_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Val

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KDots.lean ====
/-
  The kernels' four matrix products, each into the zero accumulator, read at a row and a column as a sum over the
  contracted coordinate: three contract the left operand's columns with the right operand's rows, one contracts the
  columns of both (a product with a transpose).
-/
import proofs.«114069_j30047591203213_2_alg».proof.Proof.Gen.KernelIdeal
import proofs.«114069_j30047591203213_2_alg».proof.Proof.LibMatmul

noncomputable section

namespace Cert.KernelIdeal.Val

open Idealize.ShloMosaic Idealize.ShloMosaic.ValueIdx Cert.KernelIdeal

/-- The product of an 512 × 512 matrix with a 512 × 512 matrix into the zero accumulator, at row p and column q. -/
theorem mm_proj512 {φ₁ φ₂ : FTy} (A : FVec Ideal S512x512 φ₁) (B : FVec Ideal S512x512 φ₂) (p : Fin 512) (q : Fin 512) :
    matmul dot_S512x512_S512x512_S512x512_1_0_0_1_n_n none A B (constant S512x512 .f32 0x00000000#32) (ix2 p q)
      = ∑ k : Fin 512, A (ix2 p k) * B (ix2 k q) := by
  refine Cert.LibMatmul.matmul_zero_sum1 dot_S512x512_S512x512_S512x512_1_0_0_1_n_n none 512 rfl rfl A B (ix2 p q)
    (fun k => ix2 p k) (fun k => ix2 k q) ?_ ?_
  · intro c k hk
    funext a; apply Fin.ext
    match a with
    | ⟨0, _⟩ =>
      show (dot_S512x512_S512x512_S512x512_1_0_0_1_n_n.lhsIdx (ix2 p q) c 0).val = p.val
      unfold DotDims.lhsIdx
      rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
      rfl
    | ⟨1, _⟩ => exact (dot_S512x512_S512x512_S512x512_1_0_0_1_n_n.lhsIdx_val_of_single rfl (ix2 p q) c).trans hk
  · intro c k hk
    funext a; apply Fin.ext
    match a with
    | ⟨0, _⟩ => exact (dot_S512x512_S512x512_S512x512_1_0_0_1_n_n.rhsIdx_val_of_single rfl (ix2 p q) c).trans hk
    | ⟨1, _⟩ =>
      show (dot_S512x512_S512x512_S512x512_1_0_0_1_n_n.rhsIdx (ix2 p q) c 1).val = q.val
      unfold DotDims.rhsIdx
      rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
      rfl

/-- The product of an 256 × 512 matrix with a 512 × 512 matrix into the zero accumulator, at row p and column q. -/
theorem mm_proj256 {φ₁ φ₂ : FTy} (A : FVec Ideal S256x512 φ₁) (B : FVec Ideal S512x512 φ₂) (p : Fin 256) (q : Fin 512) :
    matmul dot_S256x512_S512x512_S256x512_1_0_0_1_n_n none A B (constant S256x512 .f32 0x00000000#32) (ix2 p q)
      = ∑ k : Fin 512, A (ix2 p k) * B (ix2 k q) := by
  refine Cert.LibMatmul.matmul_zero_sum1 dot_S256x512_S512x512_S256x512_1_0_0_1_n_n none 512 rfl rfl A B (ix2 p q)
    (fun k => ix2 p k) (fun k => ix2 k q) ?_ ?_
  · intro c k hk
    funext a; apply Fin.ext
    match a with
    | ⟨0, _⟩ =>
      show (dot_S256x512_S512x512_S256x512_1_0_0_1_n_n.lhsIdx (ix2 p q) c 0).val = p.val
      unfold DotDims.lhsIdx
      rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
      rfl
    | ⟨1, _⟩ => exact (dot_S256x512_S512x512_S256x512_1_0_0_1_n_n.lhsIdx_val_of_single rfl (ix2 p q) c).trans hk
  · intro c k hk
    funext a; apply Fin.ext
    match a with
    | ⟨0, _⟩ => exact (dot_S256x512_S512x512_S256x512_1_0_0_1_n_n.rhsIdx_val_of_single rfl (ix2 p q) c).trans hk
    | ⟨1, _⟩ =>
      show (dot_S256x512_S512x512_S256x512_1_0_0_1_n_n.rhsIdx (ix2 p q) c 1).val = q.val
      unfold DotDims.rhsIdx
      rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
      rfl

/-- The product of an 256 × 512 matrix with the transpose of an 4096 × 512 matrix (both contracted over their second
    axis) into the zero accumulator, at row p and column q. -/
theorem mm_scores {φ₁ φ₂ : FTy} (A : FVec Ideal S256x512 φ₁) (B : FVec Ideal S4096x512 φ₂) (p : Fin 256) (q : Fin 4096) :
    matmul dot_S256x512_S4096x512_S256x4096_1_1_0_0_n_n none A B (constant S256x4096 .f32 0x00000000#32) (ix2 p q)
      = ∑ k : Fin 512, A (ix2 p k) * B (ix2 q k) := by
  refine Cert.LibMatmul.matmul_zero_sum1 dot_S256x512_S4096x512_S256x4096_1_1_0_0_n_n none 512 rfl rfl A B (ix2 p q)
    (fun k => ix2 p k) (fun k => ix2 q k) ?_ ?_
  · intro c k hk
    funext a; apply Fin.ext
    match a with
    | ⟨0, _⟩ =>
      show (dot_S256x512_S4096x512_S256x4096_1_1_0_0_n_n.lhsIdx (ix2 p q) c 0).val = p.val
      unfold DotDims.lhsIdx
      rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
      rfl
    | ⟨1, _⟩ => exact (dot_S256x512_S4096x512_S256x4096_1_1_0_0_n_n.lhsIdx_val_of_single rfl (ix2 p q) c).trans hk
  · intro c k hk
    funext a; apply Fin.ext
    match a with
    | ⟨0, _⟩ =>
      show (dot_S256x512_S4096x512_S256x4096_1_1_0_0_n_n.rhsIdx (ix2 p q) c 0).val = q.val
      unfold DotDims.rhsIdx
      rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
      rfl
    | ⟨1, _⟩ => exact (dot_S256x512_S4096x512_S256x4096_1_1_0_0_n_n.rhsIdx_val_of_single rfl (ix2 p q) c).trans hk

/-- The product of an 256 × 4096 matrix with a 4096 × 512 matrix into the zero accumulator, at row p and column q. -/
theorem mm_values {φ₁ φ₂ : FTy} (A : FVec Ideal S256x4096 φ₁) (B : FVec Ideal S4096x512 φ₂) (p : Fin 256) (q : Fin 512) :
    matmul dot_S256x4096_S4096x512_S256x512_1_0_0_1_n_n none A B (constant S256x512 .f32 0x00000000#32) (ix2 p q)
      = ∑ k : Fin 4096, A (ix2 p k) * B (ix2 k q) := by
  refine Cert.LibMatmul.matmul_zero_sum1 dot_S256x4096_S4096x512_S256x512_1_0_0_1_n_n none 4096 rfl rfl A B (ix2 p q)
    (fun k => ix2 p k) (fun k => ix2 k q) ?_ ?_
  · intro c k hk
    funext a; apply Fin.ext
    match a with
    | ⟨0, _⟩ =>
      show (dot_S256x4096_S4096x512_S256x512_1_0_0_1_n_n.lhsIdx (ix2 p q) c 0).val = p.val
      unfold DotDims.lhsIdx
      rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
      rfl
    | ⟨1, _⟩ => exact (dot_S256x4096_S4096x512_S256x512_1_0_0_1_n_n.lhsIdx_val_of_single rfl (ix2 p q) c).trans hk
  · intro c k hk
    funext a; apply Fin.ext
    match a with
    | ⟨0, _⟩ => exact (dot_S256x4096_S4096x512_S256x512_1_0_0_1_n_n.rhsIdx_val_of_single rfl (ix2 p q) c).trans hk
    | ⟨1, _⟩ =>
      show (dot_S256x4096_S4096x512_S256x512_1_0_0_1_n_n.rhsIdx (ix2 p q) c 1).val = q.val
      unfold DotDims.rhsIdx
      rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
      rfl

end Cert.KernelIdeal.Val

end
-- ==== Proof.Spec.lean ====
/-
  The mathematics both programs compute, entry by entry, over the extended reals.

  Five dense layers (a matrix product plus a bias row), two score matrices (queries against keys, contracted over the
  feature axis and divided by the scale), a softmax along each score row (the exponential of the entry minus the
  row's maximum, over the sum of those exponentials), the two softmaxes blended with fixed weights, and the blend
  multiplied into the projected values.  Everything is a function of row and column coordinates; nothing here
  mentions a program.
-/
import Idealize.ShloMosaic.PureOps.Ideal
import Idealize.ShloMosaic.Lib.ValueIdx

noncomputable section

namespace Cert.Spec

open Idealize.ShloMosaic Idealize.ShloMosaic.ValueIdx

/-- A rank-2 array as a function of its row and column. -/
def m2 {a b : ℕ} {φ : FTy} (X : FVec Ideal ⟨2, ![a, b]⟩ φ) : Fin a → Fin b → EReal := fun r k => X (ix2 r k)

/-- A rank-1 array as a function of its coordinate. -/
def v1 {a : ℕ} {φ : FTy} (X : FVec Ideal ⟨1, ![a]⟩ φ) : Fin a → EReal := fun k => X (ix1 k)

/-- The single row of a 1 × a array as a function of its column. -/
def row1 {a : ℕ} {φ : FTy} (X : FVec Ideal ⟨2, ![1, a]⟩ φ) : Fin a → EReal := fun k => X (ix2 (0 : Fin 1) k)

/-- A function of row and column as a rank-2 array. -/
def arr2 {a b : ℕ} (f : Fin a → Fin b → EReal) : (⟨2, ![a, b]⟩ : Shape).Idx → EReal := fun i => f (i 0) (i 1)

theorem arr2_ix2 {a b : ℕ} (f : Fin a → Fin b → EReal) (r : Fin a) (c : Fin b) : arr2 f (ix2 r c) = f r c := rfl

/-- Two arrays that agree at every (row, column) are equal. -/
theorem ext2 {a b : ℕ} {X Y : (⟨2, ![a, b]⟩ : Shape).Idx → EReal} (h : ∀ (r : Fin a) (c : Fin b), X (ix2 r c) = Y (ix2 r c)) :
    X = Y := by
  funext j
  obtain ⟨r, c, rfl⟩ : ∃ (r : Fin a) (c : Fin b), j = ix2 r c := ⟨j 0, j 1, eq_ix2 j⟩
  exact h r c

/-- A dense layer's entry (r, c): the r-th input row against the c-th weight column, plus the c-th bias. -/
def dense {n d e : ℕ} (x : Fin n → Fin d → EReal) (W : Fin d → Fin e → EReal) (b : Fin e → EReal) (r : Fin n) (c : Fin e) : EReal :=
  (∑ k : Fin d, x r k * W k c) + b c

/-- The scale the scores are divided by: the real the pattern of the square root of the feature width denotes. -/
def scale : EReal := Ideal.ofBits .f32 0x41B504F3#32

/-- The blend weights, as the reals their patterns denote. -/
def wUser : EReal := Ideal.ofBits .f32 0x3F666666#32
def wItem : EReal := Ideal.ofBits .f32 0x3DCCCCCD#32

/-- A score row: the query against every key, contracted over the feature axis, divided by the scale. -/
def score {n d : ℕ} (q : Fin d → EReal) (K : Fin n → Fin d → EReal) (j : Fin n) : EReal :=
  Ideal.div (∑ t : Fin d, q t * K j t) scale

/-- The maximum of a row, folded from −∞. -/
def rowmax {n : ℕ} (s : Fin n → EReal) : EReal := (Finset.univ : Finset (Fin n)).fold max ⊥ s

/-- The softmax of a row at column j. -/
def smax {n : ℕ} (s : Fin n → EReal) (j : Fin n) : EReal :=
  Ideal.div (Ideal.exp (s j - rowmax s)) (∑ k : Fin n, Ideal.exp (s k - rowmax s))

/-- The blend of the two softmaxes at column j. -/
def blend {n : ℕ} (su si : Fin n → EReal) (j : Fin n) : EReal := wUser * smax su j + wItem * smax si j

/-- The blended attention weight of query row r on key row j. -/
def attn {nq n d : ℕ} (qu qi : Fin nq → Fin d → EReal) (ku ki : Fin n → Fin d → EReal) (r : Fin nq) (j : Fin n) : EReal :=
  blend (score (qu r) ku) (score (qi r) ki) j

/-- The attention output: the weights of row r against the e-th value column. -/
def outp {nq n d e : ℕ} (qu qi : Fin nq → Fin d → EReal) (ku ki : Fin n → Fin d → EReal) (vu : Fin n → Fin e → EReal)
    (r : Fin nq) (c : Fin e) : EReal :=
  ∑ j : Fin n, attn qu qi ku ki r j * vu j c

end Cert.Spec

end
-- ==== Proof.Consts.lean ====
/-
  The one constant the two programs spell differently.  The reference divides each score by the real that the
  single-precision pattern of √512 denotes, 11863283 / 2¹⁹; the kernel multiplies by the reciprocal of that same
  real, 2¹⁹ / 11863283.  On the extended reals dividing by a nonzero real IS multiplying by its reciprocal, at the
  infinities too.
-/
import proofs.«114069_j30047591203213_2_alg».proof.Proof.Spec

noncomputable section

namespace Cert.Consts

open Idealize.ShloMosaic

/-- The scale's pattern denotes 11863283 / 524288. -/
theorem scale_val : Cert.Spec.scale = ((11863283 / 524288 : ℝ) : EReal) := by
  unfold Cert.Spec.scale
  simp [Ideal.ofBits, Ideal.ieee, -EReal.coe_mul]; norm_num

/-- Multiplying by the reciprocal of the scale is dividing by the scale, for every extended real. -/
theorem mul_inv_scale (x : EReal) : x * ((524288 / 11863283 : ℝ) : EReal) = Ideal.div x Cert.Spec.scale := by
  rw [scale_val, Ideal.div_coe (by norm_num : (11863283 / 524288 : ℝ) ≠ 0)]
  congr 2
  norm_num

/-- The pattern of −∞ denotes the bottom of the extended reals. -/
theorem ofBits_neg_inf : Ideal.ofBits .f32 0xFF800000#32 = ⊥ := by
  simp [Ideal.ofBits, Ideal.ieee]

end Cert.Consts

end
-- ==== Proof.LibRowMax.lean ====
/-
  The host's maximum-reduce along the rows of an m × n array, read at a row, at exact (extended-real) arithmetic:
  at row N it is the maximum, folded from the initial value, of the entries (N, k) over the n columns k.
-/
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

/-- Putting column k back behind row N gives (N, k). -/
theorem lift_row {m n : ℕ} (h : (⟨2, ![m, n]⟩ : Shape).Reduces [1] (⟨1, ![m]⟩ : Shape)) (N : Fin m)
    (k : Fin ((⟨2, ![m, n]⟩ : Shape).size 1)) : h.lift (ix1 N) k = ix2 N (⟨k.val, k.isLt⟩ : Fin n) := by
  funext d; apply Fin.ext
  fin_cases d <;> rfl

/-- The host's reduce with a maximum body over axis 1 of an m × n array, at row N: the fold of max from the initial
    value over the row's entries. -/
theorem hostReduceMax_row {m n : ℕ} {u : Shape} (x : FVec Ideal ⟨2, ![m, n]⟩ .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (N : Fin m) :
    Host.reduce FloatOps.maximumf x init h' hu (ix1 N)
      = (Finset.univ : Finset (Fin n)).fold max (init (Shape.Idx.first hu)) (fun k => x (ix2 N k)) := by
  rw [Host.reduce_eq_fold_single FloatOps.maximumf x init h' h hu]
  have e : (x ∘ h.lift (ix1 N)) = fun k : Fin n => x (ix2 N k) := funext fun k => congrArg x (lift_row h N k)
  rw [e]; rfl

end Cert.LibRowMax

end
-- ==== Proof.LibRowSumColMax.lean ====
/-
  Two reductions of an a × b array at exact (extended-real) arithmetic, read at an index given by its coordinates:
  the sum along the rows (over the second axis) at row n is the sum of the row's entries, and the maximum down the
  columns (over the first axis) at column o is the maximum, folded from the accumulator's value, of the column's
  entries.  Both are the library's single-axis laws with the reduced index, the dropped coordinate put back, written
  as (n, k) and (k, o).
-/
import proofs.«114069_j30047591203213_2_alg».proof.Proof.LibRowMax
import Idealize.ShloMosaic.PureOps.Ideal.Laws
import Idealize.ShloMosaic.Lib.ValueIdx

noncomputable section

open scoped BigOperators

namespace Cert.LibRowSumColMax

open Idealize.ShloMosaic Idealize.ShloMosaic.ValueIdx

/-- A sum along the rows of an a × b array, at row n: the sum of the row's entries. -/
theorem rowsum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ v 0x00000000#32 h hφ hacc (ix1 n) = ∑ k : Fin b, v (ix2 n k) :=
  (Ideal.multiReduction_add_single v _ h hφ hacc (ix1 n)).trans
    (Finset.sum_congr rfl fun k _ => congrArg v (Cert.LibRowMax.lift_row h n k))

/-- Putting row k back in front of column o gives (k, o). -/
theorem lift_col {a b : ℕ} (h : (⟨2, ![a, b]⟩ : Shape).Reduces [0] (⟨1, ![b]⟩ : Shape)) (o : Fin b)
    (k : Fin ((⟨2, ![a, b]⟩ : Shape).size 0)) : h.lift (ix1 o) k = ix2 (⟨k.val, k.isLt⟩ : Fin a) o := by
  funext d; apply Fin.ext
  fin_cases d <;> rfl

/-- A maximum down the columns of an a × b array, at column o: the fold of max from the initial value over the column. -/
theorem colmax_apply {a b : ℕ} (v : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (o : Fin b) :
    multiReduction .maximumf [0] ⟨1, ![b]⟩ v acc h hφ hacc (ix1 o)
      = (Finset.univ : Finset (Fin a)).fold max (Ideal.ofBits .f32 acc) (fun n => v (ix2 n o)) := by
  refine (Ideal.multiReduction_maximumf_single v acc h hφ hacc (ix1 o)).trans ?_
  have e : (v ∘ h.lift (ix1 o)) = fun n : Fin a => v (ix2 n o) := funext fun k => congrArg v (lift_col h o k)
  rw [e]; rfl

end Cert.LibRowSumColMax

end
-- ==== Proof.LibLaneMax.lean ====
/-
  The maximum along the rows of an a × b array, taken on the vector unit, at exact (extended-real) arithmetic, read at
  a row given by its coordinate: at row n it is the maximum, folded from the accumulator's value, of the row's entries.
-/
import proofs.«114069_j30047591203213_2_alg».proof.Proof.LibRowMax
import Idealize.ShloMosaic.PureOps.Ideal.Laws
import Idealize.ShloMosaic.Lib.ValueIdx

noncomputable section

namespace Cert.LibLaneMax

open Idealize.ShloMosaic Idealize.ShloMosaic.ValueIdx

/-- A maximum along the rows of an a × b array, at row n: the fold of max from the accumulator's value over the row. -/
theorem rowmax_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (n : Fin a) :
    multiReduction .maximumf [1] ⟨1, ![a]⟩ v acc h hφ hacc (ix1 n)
      = (Finset.univ : Finset (Fin b)).fold max (Ideal.ofBits .f32 acc) (fun k => v (ix2 n k)) := by
  refine (Ideal.multiReduction_maximumf_single v acc h hφ hacc (ix1 n)).trans ?_
  have e : (v ∘ h.lift (ix1 n)) = fun k : Fin b => v (ix2 n k) := funext fun k => congrArg v (Cert.LibRowMax.lift_row h n k)
  rw [e]; rfl

end Cert.LibLaneMax

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KPay.lean ====
/-
  What each kernel body computes, entry by entry.

  A projection kernel's block is a dense layer of its input block: entry (p, q) is the p-th input row against the q-th
  weight column plus the q-th bias.  The attention kernel's blocks are built from four vector-level steps, each read
  here at a row p and a column j: the scaled scores of a query block against all keys (the product with the reciprocal
  of the scale is the quotient by the scale); the exponentials of a score block minus its row maxima; the row sums of
  those; and the quotient of each exponential by its row's sum.  Composed, the attention block's entry (p, j) is the
  blended softmax weight of query row p on key row j, and the output block's entry (p, e) is those weights against the
  e-th value column.  The roundings to half precision on the way into each product are the identity here.
-/
import proofs.«114069_j30047591203213_2_alg».proof.Proof.Gen.KernelIdeal.Skeleton
import proofs.«114069_j30047591203213_2_alg».proof.Proof.KDots
import proofs.«114069_j30047591203213_2_alg».proof.Proof.Spec
import proofs.«114069_j30047591203213_2_alg».proof.Proof.Consts
import proofs.«114069_j30047591203213_2_alg».proof.Proof.LibRowSumColMax
import proofs.«114069_j30047591203213_2_alg».proof.Proof.LibLaneMax
import proofs.«114069_j30047591203213_2_alg».proof.Proof.LibKeepdims
import Idealize.ShloMosaic.Lib.ValueLayout
import Idealize.ShloMosaic.Lib.Pipeline.Value
import Idealize.ShloMosaic.PureOps.IdealRules

noncomputable section

namespace Cert.KernelIdeal.Val

open Idealize.ShloMosaic Idealize.ShloMosaic.ValueIdx Cert.KernelIdeal Cert.KernelIdeal.Gen Cert.Spec

/-! ## The vector-level steps -/

/-- A dense layer on a 512-row block, as the projection kernels compute it. -/
def denseVec512 (x W : FVec Ideal S512x512 .f32) (b : FVec Ideal S1x512 .f32) : FVec Ideal S512x512 .bf16 :=
  truncf .bf16 (addf (matmul dot_S512x512_S512x512_S512x512_1_0_0_1_n_n none (truncf .bf16 x bitsLt_bf16_f32) (truncf .bf16 W bitsLt_bf16_f32)
      (constant S512x512 .f32 0x00000000#32))
    (broadcastTo S512x512 (shapeCast S1x512 b shapeCasts_S1x512_S1x512) broadcasts_S1x512_S512x512)) bitsLt_bf16_f32

theorem denseVec512_apply (x W : FVec Ideal S512x512 .f32) (b : FVec Ideal S1x512 .f32) (p q : Fin 512) :
    denseVec512 x W b (ix2 p q) = dense (m2 x) (m2 W) (row1 b) p q := by
  refine (show denseVec512 x W b (ix2 p q)
      = (matmul dot_S512x512_S512x512_S512x512_1_0_0_1_n_n none (truncf .bf16 x bitsLt_bf16_f32) (truncf .bf16 W bitsLt_bf16_f32)
          (constant S512x512 .f32 0x00000000#32)) (ix2 p q)
        + (broadcastTo S512x512 (shapeCast S1x512 b shapeCasts_S1x512_S1x512) broadcasts_S1x512_S512x512) (ix2 p q) from rfl).trans ?_
  rw [mm_proj512, ValueIdx.broadcastTo_1b_ab_apply, shapeCast_self]
  rfl

/-- A dense layer on a 256-row block, as the attention kernel computes its queries. -/
def denseVec256 (x : FVec Ideal S256x512 .f32) (W : FVec Ideal S512x512 .f32) (b : FVec Ideal S1x512 .f32) : FVec Ideal S256x512 .bf16 :=
  truncf .bf16 (addf (matmul dot_S256x512_S512x512_S256x512_1_0_0_1_n_n none (truncf .bf16 x bitsLt_bf16_f32) (truncf .bf16 W bitsLt_bf16_f32)
      (constant S256x512 .f32 0x00000000#32))
    (broadcastTo S256x512 (shapeCast S1x512 b shapeCasts_S1x512_S1x512) broadcasts_S1x512_S256x512)) bitsLt_bf16_f32

theorem denseVec256_apply (x : FVec Ideal S256x512 .f32) (W : FVec Ideal S512x512 .f32) (b : FVec Ideal S1x512 .f32) (p : Fin 256) (q : Fin 512) :
    denseVec256 x W b (ix2 p q) = dense (m2 x) (m2 W) (row1 b) p q := by
  refine (show denseVec256 x W b (ix2 p q)
      = (matmul dot_S256x512_S512x512_S256x512_1_0_0_1_n_n none (truncf .bf16 x bitsLt_bf16_f32) (truncf .bf16 W bitsLt_bf16_f32)
          (constant S256x512 .f32 0x00000000#32)) (ix2 p q)
        + (broadcastTo S256x512 (shapeCast S1x512 b shapeCasts_S1x512_S1x512) broadcasts_S1x512_S256x512) (ix2 p q) from rfl).trans ?_
  rw [mm_proj256, ValueIdx.broadcastTo_1b_ab_apply, shapeCast_self]
  rfl

/-- The scaled scores of a query block against all keys. -/
def scoresVec (q : FVec Ideal S256x512 .bf16) (K : FVec Ideal S4096x512 .bf16) : FVec Ideal S256x4096 .f32 :=
  mulf (matmul dot_S256x512_S4096x512_S256x4096_1_1_0_0_n_n none q K (constant S256x4096 .f32 0x00000000#32))
    (broadcast S256x4096 (Named.named (F := Ideal) κ "inv_scale" (φ := .f32) 0x3D3504F3#32))

/-- The named reciprocal denotes 524288 / 11863283. -/
theorem inv_scale_val : Named.named (F := Ideal) κ "inv_scale" (φ := .f32) 0x3D3504F3#32 = ((524288 / 11863283 : ℝ) : EReal) :=
  IdealRules.named_const.ideal_named_scalar _ _ _ _ rfl

theorem scoresVec_apply (q : FVec Ideal S256x512 .bf16) (K : FVec Ideal S4096x512 .bf16) (p : Fin 256) (j : Fin 4096) :
    scoresVec q K (ix2 p j) = score (m2 q p) (m2 K) j := by
  refine (show scoresVec q K (ix2 p j)
      = (matmul dot_S256x512_S4096x512_S256x4096_1_1_0_0_n_n none q K (constant S256x4096 .f32 0x00000000#32)) (ix2 p j)
        * Named.named (F := Ideal) κ "inv_scale" (φ := .f32) 0x3D3504F3#32 from rfl).trans ?_
  rw [mm_scores, inv_scale_val, Cert.Consts.mul_inv_scale]
  rfl

/-- The exponentials of a score block minus its row maxima. -/
def expVec (s : FVec Ideal S256x4096 .f32) : FVec Ideal S256x4096 .f32 :=
  exp (subf s (broadcastTo S256x4096 (shapeCast S256x1
    (multiReduction .maximumf [1] S256 s 0xFF800000#32 reduces_S256x4096_S256 (.inl rfl) rfl) shapeCasts_S256_S256x1) broadcasts_S256x1_S256x4096))

theorem expVec_apply (s : FVec Ideal S256x4096 .f32) (p : Fin 256) (j : Fin 4096) :
    expVec s (ix2 p j) = Ideal.exp (s (ix2 p j) - rowmax (fun k : Fin 4096 => s (ix2 p k))) := by
  refine (show expVec s (ix2 p j)
      = Ideal.exp (s (ix2 p j) - (broadcastTo S256x4096 (shapeCast S256x1
          (multiReduction .maximumf [1] S256 s 0xFF800000#32 reduces_S256x4096_S256 (.inl rfl) rfl) shapeCasts_S256_S256x1) broadcasts_S256x1_S256x4096) (ix2 p j)) from rfl).trans ?_
  rw [Cert.LibKeepdims.broadcastTo_a1_ab_apply, Cert.LibKeepdims.shapeCast_a_a1_apply]
  refine congrArg (fun z => Ideal.exp (s (ix2 p j) - z)) ?_
  refine (Cert.LibLaneMax.rowmax_apply s 0xFF800000#32 reduces_S256x4096_S256 (.inl rfl) rfl p).trans ?_
  rw [Cert.Consts.ofBits_neg_inf]
  rfl

/-- The row sums of a block. -/
def sumVec (e : FVec Ideal S256x4096 .f32) : FVec Ideal S256 .f32 :=
  multiReduction .add [1] S256 e 0x00000000#32 reduces_S256x4096_S256 (.inl rfl) rfl

theorem sumVec_apply (e : FVec Ideal S256x4096 .f32) (p : Fin 256) : sumVec e (ix1 p) = ∑ k : Fin 4096, e (ix2 p k) :=
  Cert.LibRowSumColMax.rowsum_apply e reduces_S256x4096_S256 (.inl rfl) rfl p

/-- Each entry of a block over its row's entry of a column of divisors. -/
def normVec (e : FVec Ideal S256x4096 .f32) (l : FVec Ideal S256 .f32) : FVec Ideal S256x4096 .f32 :=
  divf e (broadcastTo S256x4096 (shapeCast S256x1 l shapeCasts_S256_S256x1) broadcasts_S256x1_S256x4096)

theorem normVec_apply (e : FVec Ideal S256x4096 .f32) (l : FVec Ideal S256 .f32) (p : Fin 256) (j : Fin 4096) :
    normVec e l (ix2 p j) = Ideal.div (e (ix2 p j)) (l (ix1 p)) := by
  refine (show normVec e l (ix2 p j)
      = Ideal.div (e (ix2 p j)) ((broadcastTo S256x4096 (shapeCast S256x1 l shapeCasts_S256_S256x1) broadcasts_S256x1_S256x4096) (ix2 p j)) from rfl).trans ?_
  rw [Cert.LibKeepdims.broadcastTo_a1_ab_apply, Cert.LibKeepdims.shapeCast_a_a1_apply]

/-- The softmax of a score block, entry (p, j). -/
theorem softmax_apply (s : FVec Ideal S256x4096 .f32) (p : Fin 256) (j : Fin 4096) :
    normVec (expVec s) (sumVec (expVec s)) (ix2 p j) = smax (fun k : Fin 4096 => s (ix2 p k)) j := by
  rw [normVec_apply, sumVec_apply, expVec_apply]
  unfold smax
  refine congrArg (fun z => Ideal.div _ z) (Finset.sum_congr rfl fun k _ => ?_)
  rw [expVec_apply]

/-- The blend of two normalised blocks. -/
def blendVec (a b : FVec Ideal S256x4096 .f32) : FVec Ideal S256x4096 .f32 :=
  addf (mulf (broadcast S256x4096 (Scalar.ofBits (F := Ideal) .f32 0x3F666666#32)) a) (mulf (broadcast S256x4096 (Scalar.ofBits (F := Ideal) .f32 0x3DCCCCCD#32)) b)

theorem blendVec_apply (a b : FVec Ideal S256x4096 .f32) (i : S256x4096.Idx) : blendVec a b i = wUser * a i + wItem * b i := rfl

/-- The dense layer of a whole 4096-row input, as an array. -/
def projArr (X : FVec Ideal S4096x512 .f32) (W : FVec Ideal S512x512 .f32) (b : FVec Ideal S1x512 .f32) : FVec Ideal S4096x512 .bf16 :=
  arr2 (dense (m2 X) (m2 W) (row1 b))

/-- A dense-layer entry of a block is the entry of the whole array's dense layer at the index i, when the block's input
    row is the array's row i 0, the weights are the same at column i 1, and the bias is the same there. -/
theorem dense_block_eq {n : ℕ} (X0 : FVec Ideal ⟨2, ![n, 512]⟩ .f32) (W0 : FVec Ideal S512x512 .f32) (b0 : FVec Ideal S1x512 .f32)
    (X : FVec Ideal S4096x512 .f32) (W : FVec Ideal S512x512 .f32) (b : FVec Ideal S1x512 .f32) (p : Fin n) (q : Fin 512) (r : Fin 4096) (s : Fin 512)
    (hx : ∀ k : Fin 512, X0 (ix2 p k) = X (ix2 r k)) (hw : ∀ k : Fin 512, W0 (ix2 k q) = W (ix2 k s))
    (hb : b0 (ix2 (0 : Fin 1) q) = b (ix2 (0 : Fin 1) s)) :
    dense (m2 X0) (m2 W0) (row1 b0) p q = dense (m2 X) (m2 W) (row1 b) r s := by
  show (∑ k : Fin 512, X0 (ix2 p k) * W0 (ix2 k q)) + b0 (ix2 (0 : Fin 1) q) = (∑ k : Fin 512, X (ix2 r k) * W (ix2 k s)) + b (ix2 (0 : Fin 1) s)
  rw [hb]
  refine congrArg (· + _) (Finset.sum_congr rfl fun k _ => ?_)
  rw [hx k, hw k]

/-! ## The payloads are those steps -/

theorem pay_lin0 (x W : FVec Ideal S512x512 .f32) (b : FVec Ideal S1x512 .f32) : k0_pay1 (F := Ideal) x W b = denseVec512 x W b := rfl
theorem pay_lin1 (x W : FVec Ideal S512x512 .f32) (b : FVec Ideal S1x512 .f32) : k1_pay1 (F := Ideal) x W b = denseVec512 x W b := rfl
theorem pay_lin2 (x W : FVec Ideal S512x512 .f32) (b : FVec Ideal S1x512 .f32) : k2_pay1 (F := Ideal) x W b = denseVec512 x W b := rfl

theorem pay_qitem (x : FVec Ideal S256x512 .f32) (W : FVec Ideal S512x512 .f32) (b : FVec Ideal S1x512 .f32) :
    k3_pay3 (F := Ideal) x W b = denseVec256 x W b := rfl

theorem pay_keys_item (K : FVec Ideal S4096x512 .bf16) : k3_pay4 (F := Ideal) K = K := shapeCast_self K _
theorem pay_values (K : FVec Ideal S4096x512 .bf16) : k3_pay5 (F := Ideal) K = K := shapeCast_self K _

theorem pay_exp_user (x : FVec Ideal S256x512 .f32) (W : FVec Ideal S512x512 .f32) (b : FVec Ideal S1x512 .f32) (K : FVec Ideal S4096x512 .bf16) :
    k3_pay6 (F := Ideal) x W b K = expVec (scoresVec (denseVec256 x W b) (shapeCast S4096x512 K shapeCasts_S4096x512_S4096x512)) := rfl

theorem pay_sum_user (x : FVec Ideal S256x512 .f32) (W : FVec Ideal S512x512 .f32) (b : FVec Ideal S1x512 .f32) (K : FVec Ideal S4096x512 .bf16) :
    k3_pay7 (F := Ideal) x W b K = sumVec (k3_pay6 (F := Ideal) x W b K) := rfl

theorem pay_attn (q : FVec Ideal S256x512 .bf16) (K : FVec Ideal S4096x512 .bf16) (e : FVec Ideal S256x4096 .f32) (l : FVec Ideal S256 .f32) :
    k3_pay1 (F := Ideal) q K e l = blendVec (normVec e l) (normVec (expVec (scoresVec q K)) (sumVec (expVec (scoresVec q K)))) := rfl

theorem pay_out (q : FVec Ideal S256x512 .bf16) (K Vv : FVec Ideal S4096x512 .bf16) (e : FVec Ideal S256x4096 .f32) (l : FVec Ideal S256 .f32) :
    k3_pay2 (F := Ideal) q K Vv e l
      = matmul dot_S256x4096_S4096x512_S256x512_1_0_0_1_n_n none (truncf .bf16 (k3_pay1 (F := Ideal) q K e l) bitsLt_bf16_f32) Vv
          (constant S256x512 .f32 0x00000000#32) := rfl

/-! ## The attention kernel's two blocks, entry by entry -/

/-- The attention block's entry (p, j), from the nine input blocks. -/
theorem attn_block (x0 x1 : FVec Ideal S256x512 .f32) (x2 : FVec Ideal S512x512 .f32) (x3 : FVec Ideal S1x512 .f32)
    (x4 : FVec Ideal S512x512 .f32) (x5 : FVec Ideal S1x512 .f32) (x6 x7 : FVec Ideal S4096x512 .bf16) (p : Fin 256) (j : Fin 4096) :
    k3_pay1 (F := Ideal) (k3_pay3 (F := Ideal) x1 x4 x5) (k3_pay4 (F := Ideal) x7) (k3_pay6 (F := Ideal) x0 x2 x3 x6) (k3_pay7 (F := Ideal) x0 x2 x3 x6) (ix2 p j)
      = attn (dense (m2 x0) (m2 x2) (row1 x3)) (dense (m2 x1) (m2 x4) (row1 x5)) (m2 x6) (m2 x7) p j := by
  rw [pay_attn, pay_sum_user, pay_exp_user, pay_qitem, pay_keys_item, shapeCast_self, blendVec_apply, softmax_apply, softmax_apply]
  unfold attn blend
  have hu : (fun k : Fin 4096 => scoresVec (denseVec256 x0 x2 x3) x6 (ix2 p k)) = score (dense (m2 x0) (m2 x2) (row1 x3) p) (m2 x6) :=
    funext fun k => (scoresVec_apply _ _ p k).trans (congrArg (fun f => score f (m2 x6) k) (funext fun d => denseVec256_apply x0 x2 x3 p d))
  have hi : (fun k : Fin 4096 => scoresVec (denseVec256 x1 x4 x5) x7 (ix2 p k)) = score (dense (m2 x1) (m2 x4) (row1 x5) p) (m2 x7) :=
    funext fun k => (scoresVec_apply _ _ p k).trans (congrArg (fun f => score f (m2 x7) k) (funext fun d => denseVec256_apply x1 x4 x5 p d))
  rw [hu, hi]

/-- The output block's entry (p, e), from the nine input blocks. -/
theorem out_block (x0 x1 : FVec Ideal S256x512 .f32) (x2 : FVec Ideal S512x512 .f32) (x3 : FVec Ideal S1x512 .f32)
    (x4 : FVec Ideal S512x512 .f32) (x5 : FVec Ideal S1x512 .f32) (x6 x7 x8 : FVec Ideal S4096x512 .bf16) (p : Fin 256) (e : Fin 512) :
    k3_pay2 (F := Ideal) (k3_pay3 (F := Ideal) x1 x4 x5) (k3_pay4 (F := Ideal) x7) (k3_pay5 (F := Ideal) x8) (k3_pay6 (F := Ideal) x0 x2 x3 x6) (k3_pay7 (F := Ideal) x0 x2 x3 x6) (ix2 p e)
      = outp (dense (m2 x0) (m2 x2) (row1 x3)) (dense (m2 x1) (m2 x4) (row1 x5)) (m2 x6) (m2 x7) (m2 x8) p e := by
  rw [pay_out, mm_values, pay_values]
  unfold outp
  refine Finset.sum_congr rfl fun j _ => ?_
  refine congrArg (fun z => z * x8 (ix2 j e)) ?_
  exact attn_block x0 x1 x2 x3 x4 x5 x6 x7 p j

end Cert.KernelIdeal.Val

end
-- ==== Proof.KReg0.lean ====
/-
  Projection region 0: the array its output window leaves.  The grid walks the input's rows in eight blocks of 512;
  at each point the body stores the dense layer of that block, so the output array ends as the dense layer of the whole
  input: entry (r, c) is input row r against weight column c plus bias c.  The weights and the bias row are the same
  whole blocks at every point; the input and output blocks sit at the same rows.
-/
import proofs.«114069_j30047591203213_2_alg».proof.Proof.Gen.KernelIdeal.Frame
import proofs.«114069_j30047591203213_2_alg».proof.Proof.KPay

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the input and output blocks move together down the rows, the weights and the
    bias stay. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block is some point's. -/
theorem onto0 : ∀ q0 : Fin 8, ∃ t : Fin cfg0.N, win0_3.index t = ![q0.val, 0] :=
  (by decide +kernel : ∀ q0 : Fin 8, ∃ t : Fin grid0.N, win0_3.index t = ![q0.val, 0])

/-- What point t writes back is block t of the dense layer of the arrays the region finds. -/
theorem flushed0 (c : Dev nD) (t : Fin cfg0.N) :
    (dat0 V c).flushed 3 t = ((cfg0.win 3).blk t).view.read (Elt Ideal) (projArr (V c main_arg1) (V c main_arg7) (V c main_v0)) := by
  show (cfg0.win 3).cut (grid0.coords t) ((dat0 V c).after 3 t) = _
  rw [after0_3]
  unfold out0_3
  rw [View.canon_unit_zero hz0]
  simp only [View.ld_unit_zero (S := S512x512) hz0, View.ld_unit_zero (S := S1x512) hz0]
  funext y
  obtain ⟨p, q, rfl⟩ : ∃ (p q : Fin 512), y = ix2 p q := ⟨y 0, y 1, eq_ix2 y⟩
  obtain ⟨e00, e01, e10, e11, e20, e21, e31⟩ := idx0 t
  show k0_pay1 (F := Ideal) (iblk0 V c 0 t) (iblk0 V c 1 t) (iblk0 V c 2 t) (ix2 p q)
    = projArr (V c main_arg1) (V c main_arg7) (V c main_v0) (((cfg0.win 3).blk t).view.emb (ix2 p q))
  rw [pay_lin0]
  refine (denseVec512_apply (iblk0 V c 0 t) (iblk0 V c 1 t) (iblk0 V c 2 t) p q).trans ?_
  have h0 : ((((cfg0.win 3).blk t).view.emb (ix2 p q)) 0).val = win0_3.index t (0 : Fin 2) * 512 + 1 * p.val := rfl
  have h1 : ((((cfg0.win 3).blk t).view.emb (ix2 p q)) 1).val = win0_3.index t (1 : Fin 2) * 512 + 1 * q.val := rfl
  refine dense_block_eq (iblk0 V c 0 t) (iblk0 V c 1 t) (iblk0 V c 2 t) (V c main_arg1) (V c main_arg7) (V c main_v0) p q
    ((((cfg0.win 3).blk t).view.emb (ix2 p q)) 0) ((((cfg0.win 3).blk t).view.emb (ix2 p q)) 1) (fun k => ?_) (fun k => ?_) ?_
  · show V c main_arg1 (((cfg0.win 0).blk t).view.emb (ix2 p k)) = _
    refine congrArg (V c main_arg1) (funext fun a => Fin.ext ?_)
    match a with
    | ⟨0, _⟩ => show win0_0.index t (0 : Fin 2) * 512 + 1 * p.val = _; rw [h0, e00]
    | ⟨1, _⟩ => show win0_0.index t (1 : Fin 2) * 512 + 1 * k.val = k.val; omega
  · show V c main_arg7 (((cfg0.win 1).blk t).view.emb (ix2 k q)) = _
    refine congrArg (V c main_arg7) (funext fun a => Fin.ext ?_)
    match a with
    | ⟨0, _⟩ => show win0_1.index t (0 : Fin 2) * 512 + 1 * k.val = k.val; omega
    | ⟨1, _⟩ => show win0_1.index t (1 : Fin 2) * 512 + 1 * q.val = _; rw [h1]; omega
  · show V c main_v0 (((cfg0.win 2).blk t).view.emb (ix2 (0 : Fin 1) q)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 512 + 1 * q.val = _; rw [h1]; omega

/-- An index of the array is in point t's block iff each coordinate is in the block's range on its axis. -/
theorem mem_blk0 (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- The output blocks cover the array: row r is in the block of point r / 512. -/
theorem cover0 (i : S4096x512.Idx) : ∃ t : Fin cfg0.N, (cfg0.win 3).flush t = true ∧ i ∈ ((cfg0.win 3).blk t).view.set := by
  have hi0 : (i 0).val < 4096 := (i 0).isLt
  have hi1 : (i 1).val < 512 := (i 1).isLt
  obtain ⟨t, ht⟩ := onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The output array after the region: the dense layer of the arrays the region finds. -/
theorem final0 (c : Dev nD) :
    (dat0 V c).arrAt 3 cfg0.N = projArr (V c main_arg1) (V c main_arg7) (V c main_v0) :=
  (dat0 V c).arrAt_eq_of_cover 3 (projArr (V c main_arg1) (V c main_arg7) (V c main_v0)) (fun t _ => flushed0 V c t) (cover0)

end Cert.KernelIdeal.Val

end
-- ==== Proof.KReg1.lean ====
/-
  Projection region 1: the array its output window leaves.  The grid walks the input's rows in eight blocks of 512;
  at each point the body stores the dense layer of that block, so the output array ends as the dense layer of the whole
  input: entry (r, c) is input row r against weight column c plus bias c.  The weights and the bias row are the same
  whole blocks at every point; the input and output blocks sit at the same rows.
-/
import proofs.«114069_j30047591203213_2_alg».proof.Proof.Gen.KernelIdeal.Frame
import proofs.«114069_j30047591203213_2_alg».proof.Proof.KPay

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the input and output blocks move together down the rows, the weights and the
    bias stay. -/
theorem idx1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every row block is some point's. -/
theorem onto1 : ∀ q0 : Fin 8, ∃ t : Fin cfg1.N, win1_3.index t = ![q0.val, 0] :=
  (by decide +kernel : ∀ q0 : Fin 8, ∃ t : Fin grid1.N, win1_3.index t = ![q0.val, 0])

/-- What point t writes back is block t of the dense layer of the arrays the region finds. -/
theorem flushed1 (c : Dev nD) (t : Fin cfg1.N) :
    (dat1 V c).flushed 3 t = ((cfg1.win 3).blk t).view.read (Elt Ideal) (projArr (V c main_arg2) (V c main_arg9) (V c main_v2)) := by
  show (cfg1.win 3).cut (grid1.coords t) ((dat1 V c).after 3 t) = _
  rw [after1_3]
  unfold out1_3
  rw [View.canon_unit_zero hz1]
  simp only [View.ld_unit_zero (S := S512x512) hz1, View.ld_unit_zero (S := S1x512) hz1]
  funext y
  obtain ⟨p, q, rfl⟩ : ∃ (p q : Fin 512), y = ix2 p q := ⟨y 0, y 1, eq_ix2 y⟩
  obtain ⟨e00, e01, e10, e11, e20, e21, e31⟩ := idx1 t
  show k1_pay1 (F := Ideal) (iblk1 V c 0 t) (iblk1 V c 1 t) (iblk1 V c 2 t) (ix2 p q)
    = projArr (V c main_arg2) (V c main_arg9) (V c main_v2) (((cfg1.win 3).blk t).view.emb (ix2 p q))
  rw [pay_lin1]
  refine (denseVec512_apply (iblk1 V c 0 t) (iblk1 V c 1 t) (iblk1 V c 2 t) p q).trans ?_
  have h0 : ((((cfg1.win 3).blk t).view.emb (ix2 p q)) 0).val = win1_3.index t (0 : Fin 2) * 512 + 1 * p.val := rfl
  have h1 : ((((cfg1.win 3).blk t).view.emb (ix2 p q)) 1).val = win1_3.index t (1 : Fin 2) * 512 + 1 * q.val := rfl
  refine dense_block_eq (iblk1 V c 0 t) (iblk1 V c 1 t) (iblk1 V c 2 t) (V c main_arg2) (V c main_arg9) (V c main_v2) p q
    ((((cfg1.win 3).blk t).view.emb (ix2 p q)) 0) ((((cfg1.win 3).blk t).view.emb (ix2 p q)) 1) (fun k => ?_) (fun k => ?_) ?_
  · show V c main_arg2 (((cfg1.win 0).blk t).view.emb (ix2 p k)) = _
    refine congrArg (V c main_arg2) (funext fun a => Fin.ext ?_)
    match a with
    | ⟨0, _⟩ => show win1_0.index t (0 : Fin 2) * 512 + 1 * p.val = _; rw [h0, e00]
    | ⟨1, _⟩ => show win1_0.index t (1 : Fin 2) * 512 + 1 * k.val = k.val; omega
  · show V c main_arg9 (((cfg1.win 1).blk t).view.emb (ix2 k q)) = _
    refine congrArg (V c main_arg9) (funext fun a => Fin.ext ?_)
    match a with
    | ⟨0, _⟩ => show win1_1.index t (0 : Fin 2) * 512 + 1 * k.val = k.val; omega
    | ⟨1, _⟩ => show win1_1.index t (1 : Fin 2) * 512 + 1 * q.val = _; rw [h1]; omega
  · show V c main_v2 (((cfg1.win 2).blk t).view.emb (ix2 (0 : Fin 1) q)) = _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 512 + 1 * q.val = _; rw [h1]; omega

/-- An index of the array is in point t's block iff each coordinate is in the block's range on its axis. -/
theorem mem_blk1 (t : Fin cfg1.N) (i : S4096x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v3).slice (win1_3.rect t)).set ↔ _
  rw [View.set_slice_whole, Rect.mem_set_unit]
  exact Iff.rfl

/-- The output blocks cover the array: row r is in the block of point r / 512. -/
theorem cover1 (i : S4096x512.Idx) : ∃ t : Fin cfg1.N, (cfg1.win 3).flush t = true ∧ i ∈ ((cfg1.win 3).blk t).view.set := by
  have hi0 : (i 0).val < 4096 := (i 0).isLt
  have hi1 : (i 1).val < 512 := (i 1).isLt
  obtain ⟨t, ht⟩ := onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- The output array after the region: the dense layer of the arrays the region finds. -/
theorem final1 (c : Dev nD) :
    (dat1 V c).arrAt 3 cfg1.N = projArr (V c main_arg2) (V c main_arg9) (V c main_v2) :=
  (dat1 V c).arrAt_eq_of_cover 3 (projArr (V c main_arg2) (V c main_arg9) (V c main_v2)) (fun t _ => flushed1 V c t) (cover1)

end Cert.KernelIdeal.Val

end
-- ==== Proof.KReg2.lean ====
/-
  Projection region 2: the array its output window leaves.  The grid walks the input's rows in eight blocks of 512;
  at each point the body stores the dense layer of that block, so the output array ends as the dense layer of the whole
  input: entry (r, c) is input row r against weight column c plus bias c.  The weights and the bias row are the same
  whole blocks at every point; the input and output blocks sit at the same rows.
-/
import proofs.«114069_j30047591203213_2_alg».proof.Proof.Gen.KernelIdeal.Frame
import proofs.«114069_j30047591203213_2_alg».proof.Proof.KPay

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input and output blocks move together down the rows, the weights and the
    bias stay. -/
theorem idx2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every row block is some point's. -/
theorem onto2 : ∀ q0 : Fin 8, ∃ t : Fin cfg2.N, win2_3.index t = ![q0.val, 0] :=
  (by decide +kernel : ∀ q0 : Fin 8, ∃ t : Fin grid2.N, win2_3.index t = ![q0.val, 0])

/-- What point t writes back is block t of the dense layer of the arrays the region finds. -/
theorem flushed2 (c : Dev nD) (t : Fin cfg2.N) :
    (dat2 V c).flushed 3 t = ((cfg2.win 3).blk t).view.read (Elt Ideal) (projArr (V c main_arg4) (V c main_arg13) (V c main_v4)) := by
  show (cfg2.win 3).cut (grid2.coords t) ((dat2 V c).after 3 t) = _
  rw [after2_3]
  unfold out2_3
  rw [View.canon_unit_zero hz2]
  simp only [View.ld_unit_zero (S := S512x512) hz2, View.ld_unit_zero (S := S1x512) hz2]
  funext y
  obtain ⟨p, q, rfl⟩ : ∃ (p q : Fin 512), y = ix2 p q := ⟨y 0, y 1, eq_ix2 y⟩
  obtain ⟨e00, e01, e10, e11, e20, e21, e31⟩ := idx2 t
  show k2_pay1 (F := Ideal) (iblk2 V c 0 t) (iblk2 V c 1 t) (iblk2 V c 2 t) (ix2 p q)
    = projArr (V c main_arg4) (V c main_arg13) (V c main_v4) (((cfg2.win 3).blk t).view.emb (ix2 p q))
  rw [pay_lin2]
  refine (denseVec512_apply (iblk2 V c 0 t) (iblk2 V c 1 t) (iblk2 V c 2 t) p q).trans ?_
  have h0 : ((((cfg2.win 3).blk t).view.emb (ix2 p q)) 0).val = win2_3.index t (0 : Fin 2) * 512 + 1 * p.val := rfl
  have h1 : ((((cfg2.win 3).blk t).view.emb (ix2 p q)) 1).val = win2_3.index t (1 : Fin 2) * 512 + 1 * q.val := rfl
  refine dense_block_eq (iblk2 V c 0 t) (iblk2 V c 1 t) (iblk2 V c 2 t) (V c main_arg4) (V c main_arg13) (V c main_v4) p q
    ((((cfg2.win 3).blk t).view.emb (ix2 p q)) 0) ((((cfg2.win 3).blk t).view.emb (ix2 p q)) 1) (fun k => ?_) (fun k => ?_) ?_
  · show V c main_arg4 (((cfg2.win 0).blk t).view.emb (ix2 p k)) = _
    refine congrArg (V c main_arg4) (funext fun a => Fin.ext ?_)
    match a with
    | ⟨0, _⟩ => show win2_0.index t (0 : Fin 2) * 512 + 1 * p.val = _; rw [h0, e00]
    | ⟨1, _⟩ => show win2_0.index t (1 : Fin 2) * 512 + 1 * k.val = k.val; omega
  · show V c main_arg13 (((cfg2.win 1).blk t).view.emb (ix2 k q)) = _
    refine congrArg (V c main_arg13) (funext fun a => Fin.ext ?_)
    match a with
    | ⟨0, _⟩ => show win2_1.index t (0 : Fin 2) * 512 + 1 * k.val = k.val; omega
    | ⟨1, _⟩ => show win2_1.index t (1 : Fin 2) * 512 + 1 * q.val = _; rw [h1]; omega
  · show V c main_v4 (((cfg2.win 2).blk t).view.emb (ix2 (0 : Fin 1) q)) = _
    refine congrArg (V c main_v4) (funext fun a => Fin.ext ?_)
    match a with
    | ⟨0, _⟩ => show win2_2.index t (0 : Fin 2) * 1 + 1 * 0 = 0; omega
    | ⟨1, _⟩ => show win2_2.index t (1 : Fin 2) * 512 + 1 * q.val = _; rw [h1]; omega

/-- An index of the array is in point t's block iff each coordinate is in the block's range on its axis. -/
theorem mem_blk2 (t : Fin cfg2.N) (i : S4096x512.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v5).slice (win2_3.rect t)).set ↔ _
  rw [View.set_slice_whole, Rect.mem_set_unit]
  exact Iff.rfl

/-- The output blocks cover the array: row r is in the block of point r / 512. -/
theorem cover2 (i : S4096x512.Idx) : ∃ t : Fin cfg2.N, (cfg2.win 3).flush t = true ∧ i ∈ ((cfg2.win 3).blk t).view.set := by
  have hi0 : (i 0).val < 4096 := (i 0).isLt
  have hi1 : (i 1).val < 512 := (i 1).isLt
  obtain ⟨t, ht⟩ := onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- The output array after the region: the dense layer of the arrays the region finds. -/
theorem final2 (c : Dev nD) :
    (dat2 V c).arrAt 3 cfg2.N = projArr (V c main_arg4) (V c main_arg13) (V c main_v4) :=
  (dat2 V c).arrAt_eq_of_cover 3 (projArr (V c main_arg4) (V c main_arg13) (V c main_v4)) (fun t _ => flushed2 V c t) (cover2)

end Cert.KernelIdeal.Val

end
-- ==== Proof.KWalk.lean ====
/-
  The buffer contents each region is entered from, walked back to the launch memory.

  Between regions the host only reshapes bias vectors into one-row matrices, and a region changes only its own output
  array.  So every argument array a region reads is still the launch memory's, every bias row is the reshape of the
  launch memory's bias vector, and the three projected arrays the attention region reads (user keys, item keys, user
  values) are what the three projection regions left: the dense layers of the launch memory's inputs.
-/
import proofs.«114069_j30047591203213_2_alg».proof.Proof.KReg0
import proofs.«114069_j30047591203213_2_alg».proof.Proof.KReg1
import proofs.«114069_j30047591203213_2_alg».proof.Proof.KReg2

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- A bias vector as a one-row matrix. -/
abbrev biasRow (b : FVec Ideal S512 .f32) : FVec Ideal S1x512 .f32 := shapeCast S1x512 b shapeCasts_S512_S1x512

/-! ## One boundary to the next -/

theorem keep1 (c : Dev nD) (b : Ref sig .tc) (h : b ≠ main_v0) : W1 m ρ c (Proc.devRef .tc b) = m ((c : Thread nD τ).loc b) := by
  show StableHlo.after hostOps0 (W0 m ρ c) (Proc.devRef .tc b) = _
  dsimp only [hostOps0]
  simp only [StableHlo.after_cons, StableHlo.after_nil]
  rw [StableHlo.reshape_result_ne (h := h)]

theorem keep3 (c : Dev nD) (b : Ref sig .tc) (h : b ≠ main_v2) : W3 m ρ c (Proc.devRef .tc b) = W2 m ρ c (Proc.devRef .tc b) := by
  show StableHlo.after hostOps1 (W2 m ρ c) (Proc.devRef .tc b) = _
  dsimp only [hostOps1]
  simp only [StableHlo.after_cons, StableHlo.after_nil]
  rw [StableHlo.reshape_result_ne (h := h)]

theorem keep5 (c : Dev nD) (b : Ref sig .tc) (h : b ≠ main_v4) : W5 m ρ c (Proc.devRef .tc b) = W4 m ρ c (Proc.devRef .tc b) := by
  show StableHlo.after hostOps2 (W4 m ρ c) (Proc.devRef .tc b) = _
  dsimp only [hostOps2]
  simp only [StableHlo.after_cons, StableHlo.after_nil]
  rw [StableHlo.reshape_result_ne (h := h)]

theorem keep7 (c : Dev nD) (b : Ref sig .tc) (h6 : b ≠ main_v6) (h7 : b ≠ main_v7) :
    W7 m ρ c (Proc.devRef .tc b) = W6 m ρ c (Proc.devRef .tc b) := by
  show StableHlo.after hostOps3 (W6 m ρ c) (Proc.devRef .tc b) = _
  dsimp only [hostOps3]
  simp only [StableHlo.after_cons, StableHlo.after_nil]
  rw [StableHlo.reshape_result_ne (h := h7), StableHlo.reshape_result_ne (h := h6)]

/-- An array no host reshape writes and no earlier region touches is the launch memory's at region 1's entry … -/
theorem arg3 (c : Dev nD) (b : Ref sig .tc) (h0 : b ≠ main_v0) (h1 : ∀ w, Pipeline.arrRef spec0 w ≠ b) (h2 : b ≠ main_v2) :
    W3 m ρ c (Proc.devRef .tc b) = m ((c : Thread nD τ).loc b) :=
  (keep3 m ρ c b h2).trans ((W2_of_ne m ρ c b h1).trans (keep1 m ρ c b h0))

/-- … at region 2's entry … -/
theorem arg5 (c : Dev nD) (b : Ref sig .tc) (h0 : b ≠ main_v0) (h1 : ∀ w, Pipeline.arrRef spec0 w ≠ b) (h2 : b ≠ main_v2)
    (h3 : ∀ w, Pipeline.arrRef spec1 w ≠ b) (h4 : b ≠ main_v4) :
    W5 m ρ c (Proc.devRef .tc b) = m ((c : Thread nD τ).loc b) :=
  (keep5 m ρ c b h4).trans ((W4_of_ne m ρ c b h3).trans (arg3 m ρ c b h0 h1 h2))

/-- … and at region 3's entry. -/
theorem arg7 (c : Dev nD) (b : Ref sig .tc) (h0 : b ≠ main_v0) (h1 : ∀ w, Pipeline.arrRef spec0 w ≠ b) (h2 : b ≠ main_v2)
    (h3 : ∀ w, Pipeline.arrRef spec1 w ≠ b) (h4 : b ≠ main_v4) (h5 : ∀ w, Pipeline.arrRef spec2 w ≠ b) (h6 : b ≠ main_v6) (h7 : b ≠ main_v7) :
    W7 m ρ c (Proc.devRef .tc b) = m ((c : Thread nD τ).loc b) :=
  (keep7 m ρ c b h6 h7).trans ((W6_of_ne m ρ c b h5).trans (arg5 m ρ c b h0 h1 h2 h3 h4))

/-! ## The bias rows -/

theorem bias1 (c : Dev nD) : W1 m ρ c (Proc.devRef .tc main_v0) = biasRow (m ((c : Thread nD τ).loc main_arg8)) := by
  show StableHlo.after hostOps0 (W0 m ρ c) (Proc.devRef .tc main_v0) = _
  dsimp only [hostOps0]
  simp only [StableHlo.after_cons, StableHlo.after_nil]
  rw [StableHlo.reshape_result]
  rfl

theorem bias3 (c : Dev nD) : W3 m ρ c (Proc.devRef .tc main_v2) = biasRow (m ((c : Thread nD τ).loc main_arg10)) := by
  show StableHlo.after hostOps1 (W2 m ρ c) (Proc.devRef .tc main_v2) = _
  dsimp only [hostOps1]
  simp only [StableHlo.after_cons, StableHlo.after_nil]
  rw [StableHlo.reshape_result, (W2_of_ne m ρ c main_arg10 (by decide)).trans (keep1 m ρ c main_arg10 (by decide))]
  rfl

theorem bias5 (c : Dev nD) : W5 m ρ c (Proc.devRef .tc main_v4) = biasRow (m ((c : Thread nD τ).loc main_arg14)) := by
  show StableHlo.after hostOps2 (W4 m ρ c) (Proc.devRef .tc main_v4) = _
  dsimp only [hostOps2]
  simp only [StableHlo.after_cons, StableHlo.after_nil]
  rw [StableHlo.reshape_result, (W4_of_ne m ρ c main_arg14 (by decide)).trans (arg3 m ρ c main_arg14 (by decide) (by decide) (by decide))]
  rfl

theorem bias7u (c : Dev nD) : W7 m ρ c (Proc.devRef .tc main_v6) = biasRow (m ((c : Thread nD τ).loc main_arg6)) := by
  show StableHlo.after hostOps3 (W6 m ρ c) (Proc.devRef .tc main_v6) = _
  dsimp only [hostOps3]
  simp only [StableHlo.after_cons, StableHlo.after_nil]
  rw [StableHlo.reshape_result_ne (h := (by decide : main_v6 ≠ main_v7)), StableHlo.reshape_result,
    (W6_of_ne m ρ c main_arg6 (by decide)).trans (arg5 m ρ c main_arg6 (by decide) (by decide) (by decide) (by decide) (by decide))]
  rfl

theorem bias7i (c : Dev nD) : W7 m ρ c (Proc.devRef .tc main_v7) = biasRow (m ((c : Thread nD τ).loc main_arg12)) := by
  show StableHlo.after hostOps3 (W6 m ρ c) (Proc.devRef .tc main_v7) = _
  dsimp only [hostOps3]
  simp only [StableHlo.after_cons, StableHlo.after_nil]
  rw [StableHlo.reshape_result, StableHlo.reshape_result_ne (h := (by decide : main_arg12 ≠ main_v6)),
    (W6_of_ne m ρ c main_arg12 (by decide)).trans (arg5 m ρ c main_arg12 (by decide) (by decide) (by decide) (by decide) (by decide))]
  rfl

/-! ## The three projected arrays -/

/-- The user keys, as region 0 leaves them. -/
theorem keysUser2 (c : Dev nD) : W2 m ρ c (Proc.devRef .tc main_v1)
    = projArr (m ((c : Thread nD τ).loc main_arg1)) (m ((c : Thread nD τ).loc main_arg7)) (biasRow (m ((c : Thread nD τ).loc main_arg8))) := by
  refine (W2_arr m ρ c 3).trans ((final0 (V1 m ρ) c).trans ?_)
  show projArr (W1 m ρ c (Proc.devRef .tc main_arg1)) (W1 m ρ c (Proc.devRef .tc main_arg7)) (W1 m ρ c (Proc.devRef .tc main_v0)) = _
  rw [keep1 m ρ c main_arg1 (by decide), keep1 m ρ c main_arg7 (by decide), bias1]

/-- The user values, as region 1 leaves them. -/
theorem valuesUser4 (c : Dev nD) : W4 m ρ c (Proc.devRef .tc main_v3)
    = projArr (m ((c : Thread nD τ).loc main_arg2)) (m ((c : Thread nD τ).loc main_arg9)) (biasRow (m ((c : Thread nD τ).loc main_arg10))) := by
  refine (W4_arr m ρ c 3).trans ((final1 (V3 m ρ) c).trans ?_)
  show projArr (W3 m ρ c (Proc.devRef .tc main_arg2)) (W3 m ρ c (Proc.devRef .tc main_arg9)) (W3 m ρ c (Proc.devRef .tc main_v2)) = _
  rw [arg3 m ρ c main_arg2 (by decide) (by decide) (by decide), arg3 m ρ c main_arg9 (by decide) (by decide) (by decide), bias3]

/-- The item keys, as region 2 leaves them. -/
theorem keysItem6 (c : Dev nD) : W6 m ρ c (Proc.devRef .tc main_v5)
    = projArr (m ((c : Thread nD τ).loc main_arg4)) (m ((c : Thread nD τ).loc main_arg13)) (biasRow (m ((c : Thread nD τ).loc main_arg14))) := by
  refine (W6_arr m ρ c 3).trans ((final2 (V5 m ρ) c).trans ?_)
  show projArr (W5 m ρ c (Proc.devRef .tc main_arg4)) (W5 m ρ c (Proc.devRef .tc main_arg13)) (W5 m ρ c (Proc.devRef .tc main_v4)) = _
  rw [arg5 m ρ c main_arg4 (by decide) (by decide) (by decide) (by decide) (by decide),
    arg5 m ρ c main_arg13 (by decide) (by decide) (by decide) (by decide) (by decide), bias5]

/-- The three, at the attention region's entry. -/
theorem keysUser7 (c : Dev nD) : W7 m ρ c (Proc.devRef .tc main_v1)
    = projArr (m ((c : Thread nD τ).loc main_arg1)) (m ((c : Thread nD τ).loc main_arg7)) (biasRow (m ((c : Thread nD τ).loc main_arg8))) :=
  (keep7 m ρ c main_v1 (by decide) (by decide)).trans ((W6_of_ne m ρ c main_v1 (by decide)).trans ((keep5 m ρ c main_v1 (by decide)).trans
    ((W4_of_ne m ρ c main_v1 (by decide)).trans ((keep3 m ρ c main_v1 (by decide)).trans (keysUser2 m ρ c)))))

theorem valuesUser7 (c : Dev nD) : W7 m ρ c (Proc.devRef .tc main_v3)
    = projArr (m ((c : Thread nD τ).loc main_arg2)) (m ((c : Thread nD τ).loc main_arg9)) (biasRow (m ((c : Thread nD τ).loc main_arg10))) :=
  (keep7 m ρ c main_v3 (by decide) (by decide)).trans ((W6_of_ne m ρ c main_v3 (by decide)).trans ((keep5 m ρ c main_v3 (by decide)).trans
    (valuesUser4 m ρ c)))

theorem keysItem7 (c : Dev nD) : W7 m ρ c (Proc.devRef .tc main_v5)
    = projArr (m ((c : Thread nD τ).loc main_arg4)) (m ((c : Thread nD τ).loc main_arg13)) (biasRow (m ((c : Thread nD τ).loc main_arg14))) :=
  (keep7 m ρ c main_v5 (by decide) (by decide)).trans (keysItem6 m ρ c)

end Cert.KernelIdeal.Val

end
-- ==== Proof.KReg3.lean ====
/-
  The attention region: the two arrays its output windows leave.  The grid walks the query rows in sixteen blocks of
  256.  At each point the body projects the block's user and item queries, scores them against ALL keys, takes the two
  row softmaxes, blends them and multiplies the blend into the values; the weights, the bias rows and the three
  projected key / value arrays are the same whole blocks at every point.  An attention weight or an output entry of row
  r depends on the queries only through row r, so block t of each result is block t of one whole-array function, and
  the blocks tile the arrays.
-/
import proofs.«114069_j30047591203213_2_alg».proof.Proof.Gen.KernelIdeal.Frame
import proofs.«114069_j30047591203213_2_alg».proof.Proof.KPay

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

/-- The blended attention weights of all query rows, as an array. -/
def attnArr (Qu Qi : FVec Ideal S4096x512 .f32) (Wu : FVec Ideal S512x512 .f32) (bu : FVec Ideal S1x512 .f32)
    (Wi : FVec Ideal S512x512 .f32) (bi : FVec Ideal S1x512 .f32) (Ku Ki : FVec Ideal S4096x512 .bf16) : FVec Ideal S4096x4096 .f32 :=
  arr2 (attn (dense (m2 Qu) (m2 Wu) (row1 bu)) (dense (m2 Qi) (m2 Wi) (row1 bi)) (m2 Ku) (m2 Ki))

/-- The attention output of all query rows, as an array. -/
def outArr (Qu Qi : FVec Ideal S4096x512 .f32) (Wu : FVec Ideal S512x512 .f32) (bu : FVec Ideal S1x512 .f32)
    (Wi : FVec Ideal S512x512 .f32) (bi : FVec Ideal S1x512 .f32) (Ku Ki Vu : FVec Ideal S4096x512 .bf16) : FVec Ideal S4096x512 .f32 :=
  arr2 (outp (dense (m2 Qu) (m2 Wu) (row1 bu)) (dense (m2 Qi) (m2 Wi) (row1 bi)) (m2 Ku) (m2 Ki) (m2 Vu))

/-- An attention weight depends on the queries only through its own row. -/
theorem attn_congr {nq nq' n d : ℕ} (qu qi : Fin nq → Fin d → EReal) (qu' qi' : Fin nq' → Fin d → EReal) (ku ki ku' ki' : Fin n → Fin d → EReal)
    (p : Fin nq) (r : Fin nq') (j s : Fin n) (hu : qu p = qu' r) (hi : qi p = qi' r) (hku : ku = ku') (hki : ki = ki') (hj : j = s) :
    attn qu qi ku ki p j = attn qu' qi' ku' ki' r s := by
  unfold attn
  rw [hu, hi, hku, hki, hj]

/-- So does an output entry. -/
theorem outp_congr {nq nq' n d e : ℕ} (qu qi : Fin nq → Fin d → EReal) (qu' qi' : Fin nq' → Fin d → EReal) (ku ki ku' ki' : Fin n → Fin d → EReal)
    (vu vu' : Fin n → Fin e → EReal) (p : Fin nq) (r : Fin nq') (x s : Fin e)
    (hu : qu p = qu' r) (hi : qi p = qi' r) (hku : ku = ku') (hki : ki = ki') (hvu : vu = vu') (hx : x = s) :
    outp qu qi ku ki vu p x = outp qu' qi' ku' ki' vu' r s := by
  unfold outp
  rw [hvu, hx]
  exact Finset.sum_congr rfl fun j _ => congrArg (· * vu' j s) (attn_congr qu qi qu' qi' ku ki ku' ki' p r j j hu hi hku hki rfl)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the two query blocks and the two result blocks move together down the rows; -/
theorem idx3_rows : ∀ t : Fin cfg3.N, win3_0.index t (0 : Fin 2) = win3_10.index t (0 : Fin 2) ∧ win3_0.index t (1 : Fin 2) = 0
    ∧ win3_1.index t (0 : Fin 2) = win3_10.index t (0 : Fin 2) ∧ win3_1.index t (1 : Fin 2) = 0
    ∧ win3_9.index t (0 : Fin 2) = win3_10.index t (0 : Fin 2) ∧ win3_9.index t (1 : Fin 2) = 0
    ∧ win3_10.index t (1 : Fin 2) = 0 :=
  (by decide +kernel : ∀ t : Fin grid3.N, _)

/-! every other window stays at its one whole block. -/

theorem idx3_whole_2 : ∀ t : Fin cfg3.N, win3_2.index t (0 : Fin 2) = 0 ∧ win3_2.index t (1 : Fin 2) = 0 :=
  (by decide +kernel : ∀ t : Fin grid3.N, _)
theorem idx3_whole_3 : ∀ t : Fin cfg3.N, win3_3.index t (0 : Fin 2) = 0 ∧ win3_3.index t (1 : Fin 2) = 0 :=
  (by decide +kernel : ∀ t : Fin grid3.N, _)
theorem idx3_whole_4 : ∀ t : Fin cfg3.N, win3_4.index t (0 : Fin 2) = 0 ∧ win3_4.index t (1 : Fin 2) = 0 :=
  (by decide +kernel : ∀ t : Fin grid3.N, _)
theorem idx3_whole_5 : ∀ t : Fin cfg3.N, win3_5.index t (0 : Fin 2) = 0 ∧ win3_5.index t (1 : Fin 2) = 0 :=
  (by decide +kernel : ∀ t : Fin grid3.N, _)
theorem idx3_whole_6 : ∀ t : Fin cfg3.N, win3_6.index t (0 : Fin 2) = 0 ∧ win3_6.index t (1 : Fin 2) = 0 :=
  (by decide +kernel : ∀ t : Fin grid3.N, _)
theorem idx3_whole_7 : ∀ t : Fin cfg3.N, win3_7.index t (0 : Fin 2) = 0 ∧ win3_7.index t (1 : Fin 2) = 0 :=
  (by decide +kernel : ∀ t : Fin grid3.N, _)
theorem idx3_whole_8 : ∀ t : Fin cfg3.N, win3_8.index t (0 : Fin 2) = 0 ∧ win3_8.index t (1 : Fin 2) = 0 :=
  (by decide +kernel : ∀ t : Fin grid3.N, _)

/-- Every row block is some point's. -/
theorem onto3_10 : ∀ q0 : Fin 16, ∃ t : Fin cfg3.N, win3_10.index t = ![q0.val, 0] :=
  (by decide +kernel : ∀ q0 : Fin 16, ∃ t : Fin grid3.N, win3_10.index t = ![q0.val, 0])
theorem onto3_9 : ∀ q0 : Fin 16, ∃ t : Fin cfg3.N, win3_9.index t = ![q0.val, 0] :=
  (by decide +kernel : ∀ q0 : Fin 16, ∃ t : Fin grid3.N, win3_9.index t = ![q0.val, 0])

/-- Window 2's block is its whole array at every point. -/
theorem whole3_2 (c : Dev nD) (t : Fin cfg3.N) (a : Fin 512) (b : Fin 512) :
    iblk3 V c 2 t (ix2 a b) = V c main_arg5 (ix2 a b) := by
  show V c main_arg5 (((cfg3.win 2).blk t).view.emb (ix2 a b)) = _
  obtain ⟨e0, e1⟩ := idx3_whole_2 t
  refine congrArg (V c main_arg5) (funext fun d => Fin.ext ?_)
  match d with
  | ⟨0, _⟩ => show win3_2.index t (0 : Fin 2) * 512 + 1 * a.val = a.val; omega
  | ⟨1, _⟩ => show win3_2.index t (1 : Fin 2) * 512 + 1 * b.val = b.val; omega

/-- Window 3's block is its whole array at every point. -/
theorem whole3_3 (c : Dev nD) (t : Fin cfg3.N) (a : Fin 1) (b : Fin 512) :
    iblk3 V c 3 t (ix2 a b) = V c main_v6 (ix2 a b) := by
  show V c main_v6 (((cfg3.win 3).blk t).view.emb (ix2 a b)) = _
  obtain ⟨e0, e1⟩ := idx3_whole_3 t
  refine congrArg (V c main_v6) (funext fun d => Fin.ext ?_)
  match d with
  | ⟨0, _⟩ => show win3_3.index t (0 : Fin 2) * 1 + 1 * a.val = a.val; omega
  | ⟨1, _⟩ => show win3_3.index t (1 : Fin 2) * 512 + 1 * b.val = b.val; omega

/-- Window 4's block is its whole array at every point. -/
theorem whole3_4 (c : Dev nD) (t : Fin cfg3.N) (a : Fin 512) (b : Fin 512) :
    iblk3 V c 4 t (ix2 a b) = V c main_arg11 (ix2 a b) := by
  show V c main_arg11 (((cfg3.win 4).blk t).view.emb (ix2 a b)) = _
  obtain ⟨e0, e1⟩ := idx3_whole_4 t
  refine congrArg (V c main_arg11) (funext fun d => Fin.ext ?_)
  match d with
  | ⟨0, _⟩ => show win3_4.index t (0 : Fin 2) * 512 + 1 * a.val = a.val; omega
  | ⟨1, _⟩ => show win3_4.index t (1 : Fin 2) * 512 + 1 * b.val = b.val; omega

/-- Window 5's block is its whole array at every point. -/
theorem whole3_5 (c : Dev nD) (t : Fin cfg3.N) (a : Fin 1) (b : Fin 512) :
    iblk3 V c 5 t (ix2 a b) = V c main_v7 (ix2 a b) := by
  show V c main_v7 (((cfg3.win 5).blk t).view.emb (ix2 a b)) = _
  obtain ⟨e0, e1⟩ := idx3_whole_5 t
  refine congrArg (V c main_v7) (funext fun d => Fin.ext ?_)
  match d with
  | ⟨0, _⟩ => show win3_5.index t (0 : Fin 2) * 1 + 1 * a.val = a.val; omega
  | ⟨1, _⟩ => show win3_5.index t (1 : Fin 2) * 512 + 1 * b.val = b.val; omega

/-- Window 6's block is its whole array at every point. -/
theorem whole3_6 (c : Dev nD) (t : Fin cfg3.N) (a : Fin 4096) (b : Fin 512) :
    iblk3 V c 6 t (ix2 a b) = V c main_v1 (ix2 a b) := by
  show V c main_v1 (((cfg3.win 6).blk t).view.emb (ix2 a b)) = _
  obtain ⟨e0, e1⟩ := idx3_whole_6 t
  refine congrArg (V c main_v1) (funext fun d => Fin.ext ?_)
  match d with
  | ⟨0, _⟩ => show win3_6.index t (0 : Fin 2) * 4096 + 1 * a.val = a.val; omega
  | ⟨1, _⟩ => show win3_6.index t (1 : Fin 2) * 512 + 1 * b.val = b.val; omega

/-- Window 7's block is its whole array at every point. -/
theorem whole3_7 (c : Dev nD) (t : Fin cfg3.N) (a : Fin 4096) (b : Fin 512) :
    iblk3 V c 7 t (ix2 a b) = V c main_v5 (ix2 a b) := by
  show V c main_v5 (((cfg3.win 7).blk t).view.emb (ix2 a b)) = _
  obtain ⟨e0, e1⟩ := idx3_whole_7 t
  refine congrArg (V c main_v5) (funext fun d => Fin.ext ?_)
  match d with
  | ⟨0, _⟩ => show win3_7.index t (0 : Fin 2) * 4096 + 1 * a.val = a.val; omega
  | ⟨1, _⟩ => show win3_7.index t (1 : Fin 2) * 512 + 1 * b.val = b.val; omega

/-- Window 8's block is its whole array at every point. -/
theorem whole3_8 (c : Dev nD) (t : Fin cfg3.N) (a : Fin 4096) (b : Fin 512) :
    iblk3 V c 8 t (ix2 a b) = V c main_v3 (ix2 a b) := by
  show V c main_v3 (((cfg3.win 8).blk t).view.emb (ix2 a b)) = _
  obtain ⟨e0, e1⟩ := idx3_whole_8 t
  refine congrArg (V c main_v3) (funext fun d => Fin.ext ?_)
  match d with
  | ⟨0, _⟩ => show win3_8.index t (0 : Fin 2) * 4096 + 1 * a.val = a.val; omega
  | ⟨1, _⟩ => show win3_8.index t (1 : Fin 2) * 512 + 1 * b.val = b.val; omega

/-- What point t writes back through the attention window is block t of the attention array of the arrays the region finds. -/
theorem flushed3_10 (c : Dev nD) (t : Fin cfg3.N) :
    (dat3 V c).flushed 10 t = ((cfg3.win 10).blk t).view.read (Elt Ideal)
      (attnArr (V c main_arg0) (V c main_arg3) (V c main_arg5) (V c main_v6) (V c main_arg11) (V c main_v7) (V c main_v1) (V c main_v5)) := by
  show (cfg3.win 10).cut (grid3.coords t) ((dat3 V c).after 10 t) = _
  rw [after3_10]
  unfold out3_10
  rw [View.canon_unit_zero hz3]
  simp only [View.ld_unit_zero (S := S256x512) hz3, View.ld_unit_zero (S := S512x512) hz3, View.ld_unit_zero (S := S1x512) hz3,
    View.ld_unit_zero (S := S4096x512) hz3]
  funext y
  obtain ⟨p, j, rfl⟩ : ∃ (p : Fin 256) (j : Fin 4096), y = ix2 p j := ⟨y 0, y 1, eq_ix2 y⟩
  show k3_pay1 (F := Ideal) (k3_pay3 (F := Ideal) (iblk3 V c 1 t) (iblk3 V c 4 t) (iblk3 V c 5 t)) (k3_pay4 (F := Ideal) (iblk3 V c 7 t))
      (k3_pay6 (F := Ideal) (iblk3 V c 0 t) (iblk3 V c 2 t) (iblk3 V c 3 t) (iblk3 V c 6 t))
      (k3_pay7 (F := Ideal) (iblk3 V c 0 t) (iblk3 V c 2 t) (iblk3 V c 3 t) (iblk3 V c 6 t)) (ix2 p j)
    = attnArr (V c main_arg0) (V c main_arg3) (V c main_arg5) (V c main_v6) (V c main_arg11) (V c main_v7) (V c main_v1) (V c main_v5)
        (((cfg3.win 10).blk t).view.emb (ix2 p j))
  refine (attn_block (iblk3 V c 0 t) (iblk3 V c 1 t) (iblk3 V c 2 t) (iblk3 V c 3 t) (iblk3 V c 4 t) (iblk3 V c 5 t) (iblk3 V c 6 t) (iblk3 V c 7 t) p j).trans ?_

  have h0 : ((((cfg3.win 10).blk t).view.emb (ix2 p j)) 0).val = win3_10.index t (0 : Fin 2) * 256 + 1 * p.val := rfl
  have h1 : ((((cfg3.win 10).blk t).view.emb (ix2 p j)) 1).val = win3_10.index t (1 : Fin 2) * 4096 + 1 * j.val := rfl
  obtain ⟨r0, r1, r2, r3, r4, r5, r6⟩ := idx3_rows t
  have hq0 : ∀ k : Fin 512, iblk3 V c 0 t (ix2 p k) = V c main_arg0 (ix2 ((((cfg3.win 10).blk t).view.emb (ix2 p j)) 0) k) := fun k => by
    show V c main_arg0 (((cfg3.win 0).blk t).view.emb (ix2 p k)) = _
    refine congrArg (V c main_arg0) (funext fun d => Fin.ext ?_)
    match d with
    | ⟨0, _⟩ => show win3_0.index t (0 : Fin 2) * 256 + 1 * p.val = _; rw [h0]; omega
    | ⟨1, _⟩ => show win3_0.index t (1 : Fin 2) * 512 + 1 * k.val = k.val; omega
  have hq1 : ∀ k : Fin 512, iblk3 V c 1 t (ix2 p k) = V c main_arg3 (ix2 ((((cfg3.win 10).blk t).view.emb (ix2 p j)) 0) k) := fun k => by
    show V c main_arg3 (((cfg3.win 1).blk t).view.emb (ix2 p k)) = _
    refine congrArg (V c main_arg3) (funext fun d => Fin.ext ?_)
    match d with
    | ⟨0, _⟩ => show win3_1.index t (0 : Fin 2) * 256 + 1 * p.val = _; rw [h0]; omega
    | ⟨1, _⟩ => show win3_1.index t (1 : Fin 2) * 512 + 1 * k.val = k.val; omega
  have hcol : ((((cfg3.win 10).blk t).view.emb (ix2 p j)) 1) = j := Fin.ext (by rw [h1]; omega)
  have hQu : dense (m2 (iblk3 V c 0 t)) (m2 (iblk3 V c 2 t)) (row1 (iblk3 V c 3 t)) p
      = dense (m2 (V c main_arg0)) (m2 (V c main_arg5)) (row1 (V c main_v6)) ((((cfg3.win 10).blk t).view.emb (ix2 p j)) 0) :=
    funext fun d => dense_block_eq (iblk3 V c 0 t) (iblk3 V c 2 t) (iblk3 V c 3 t) (V c main_arg0) (V c main_arg5) (V c main_v6) p d _ d
      hq0 (fun k => whole3_2 V c t k d) (whole3_3 V c t 0 d)
  have hQi : dense (m2 (iblk3 V c 1 t)) (m2 (iblk3 V c 4 t)) (row1 (iblk3 V c 5 t)) p
      = dense (m2 (V c main_arg3)) (m2 (V c main_arg11)) (row1 (V c main_v7)) ((((cfg3.win 10).blk t).view.emb (ix2 p j)) 0) :=
    funext fun d => dense_block_eq (iblk3 V c 1 t) (iblk3 V c 4 t) (iblk3 V c 5 t) (V c main_arg3) (V c main_arg11) (V c main_v7) p d _ d
      hq1 (fun k => whole3_4 V c t k d) (whole3_5 V c t 0 d)
  have hKu : m2 (φ := .bf16) (iblk3 V c 6 t) = m2 (φ := .bf16) (V c main_v1) := funext fun a => funext fun b => whole3_6 V c t a b
  have hKi : m2 (φ := .bf16) (iblk3 V c 7 t) = m2 (φ := .bf16) (V c main_v5) := funext fun a => funext fun b => whole3_7 V c t a b
  exact attn_congr _ _ _ _ _ _ _ _ p _ j _ hQu hQi hKu hKi hcol.symm

/-- What point t writes back through the output window is block t of the output array of the arrays the region finds. -/
theorem flushed3_9 (c : Dev nD) (t : Fin cfg3.N) :
    (dat3 V c).flushed 9 t = ((cfg3.win 9).blk t).view.read (Elt Ideal)
      (outArr (V c main_arg0) (V c main_arg3) (V c main_arg5) (V c main_v6) (V c main_arg11) (V c main_v7) (V c main_v1) (V c main_v5) (V c main_v3)) := by
  show (cfg3.win 9).cut (grid3.coords t) ((dat3 V c).after 9 t) = _
  rw [after3_9]
  unfold out3_9
  rw [View.canon_unit_zero hz3]
  simp only [View.ld_unit_zero (S := S256x512) hz3, View.ld_unit_zero (S := S512x512) hz3, View.ld_unit_zero (S := S1x512) hz3,
    View.ld_unit_zero (S := S4096x512) hz3]
  funext y
  obtain ⟨p, x, rfl⟩ : ∃ (p : Fin 256) (x : Fin 512), y = ix2 p x := ⟨y 0, y 1, eq_ix2 y⟩
  show k3_pay2 (F := Ideal) (k3_pay3 (F := Ideal) (iblk3 V c 1 t) (iblk3 V c 4 t) (iblk3 V c 5 t)) (k3_pay4 (F := Ideal) (iblk3 V c 7 t))
      (k3_pay5 (F := Ideal) (iblk3 V c 8 t))
      (k3_pay6 (F := Ideal) (iblk3 V c 0 t) (iblk3 V c 2 t) (iblk3 V c 3 t) (iblk3 V c 6 t))
      (k3_pay7 (F := Ideal) (iblk3 V c 0 t) (iblk3 V c 2 t) (iblk3 V c 3 t) (iblk3 V c 6 t)) (ix2 p x)
    = outArr (V c main_arg0) (V c main_arg3) (V c main_arg5) (V c main_v6) (V c main_arg11) (V c main_v7) (V c main_v1) (V c main_v5) (V c main_v3)
        (((cfg3.win 9).blk t).view.emb (ix2 p x))
  refine (out_block (iblk3 V c 0 t) (iblk3 V c 1 t) (iblk3 V c 2 t) (iblk3 V c 3 t) (iblk3 V c 4 t) (iblk3 V c 5 t) (iblk3 V c 6 t) (iblk3 V c 7 t) (iblk3 V c 8 t) p x).trans ?_

  have h0 : ((((cfg3.win 9).blk t).view.emb (ix2 p x)) 0).val = win3_9.index t (0 : Fin 2) * 256 + 1 * p.val := rfl
  have h1 : ((((cfg3.win 9).blk t).view.emb (ix2 p x)) 1).val = win3_9.index t (1 : Fin 2) * 512 + 1 * x.val := rfl
  obtain ⟨r0, r1, r2, r3, r4, r5, r6⟩ := idx3_rows t
  have hq0 : ∀ k : Fin 512, iblk3 V c 0 t (ix2 p k) = V c main_arg0 (ix2 ((((cfg3.win 9).blk t).view.emb (ix2 p x)) 0) k) := fun k => by
    show V c main_arg0 (((cfg3.win 0).blk t).view.emb (ix2 p k)) = _
    refine congrArg (V c main_arg0) (funext fun d => Fin.ext ?_)
    match d with
    | ⟨0, _⟩ => show win3_0.index t (0 : Fin 2) * 256 + 1 * p.val = _; rw [h0]; omega
    | ⟨1, _⟩ => show win3_0.index t (1 : Fin 2) * 512 + 1 * k.val = k.val; omega
  have hq1 : ∀ k : Fin 512, iblk3 V c 1 t (ix2 p k) = V c main_arg3 (ix2 ((((cfg3.win 9).blk t).view.emb (ix2 p x)) 0) k) := fun k => by
    show V c main_arg3 (((cfg3.win 1).blk t).view.emb (ix2 p k)) = _
    refine congrArg (V c main_arg3) (funext fun d => Fin.ext ?_)
    match d with
    | ⟨0, _⟩ => show win3_1.index t (0 : Fin 2) * 256 + 1 * p.val = _; rw [h0]; omega
    | ⟨1, _⟩ => show win3_1.index t (1 : Fin 2) * 512 + 1 * k.val = k.val; omega
  have hcol : ((((cfg3.win 9).blk t).view.emb (ix2 p x)) 1) = x := Fin.ext (by rw [h1]; omega)
  have hQu : dense (m2 (iblk3 V c 0 t)) (m2 (iblk3 V c 2 t)) (row1 (iblk3 V c 3 t)) p
      = dense (m2 (V c main_arg0)) (m2 (V c main_arg5)) (row1 (V c main_v6)) ((((cfg3.win 9).blk t).view.emb (ix2 p x)) 0) :=
    funext fun d => dense_block_eq (iblk3 V c 0 t) (iblk3 V c 2 t) (iblk3 V c 3 t) (V c main_arg0) (V c main_arg5) (V c main_v6) p d _ d
      hq0 (fun k => whole3_2 V c t k d) (whole3_3 V c t 0 d)
  have hQi : dense (m2 (iblk3 V c 1 t)) (m2 (iblk3 V c 4 t)) (row1 (iblk3 V c 5 t)) p
      = dense (m2 (V c main_arg3)) (m2 (V c main_arg11)) (row1 (V c main_v7)) ((((cfg3.win 9).blk t).view.emb (ix2 p x)) 0) :=
    funext fun d => dense_block_eq (iblk3 V c 1 t) (iblk3 V c 4 t) (iblk3 V c 5 t) (V c main_arg3) (V c main_arg11) (V c main_v7) p d _ d
      hq1 (fun k => whole3_4 V c t k d) (whole3_5 V c t 0 d)
  have hKu : m2 (φ := .bf16) (iblk3 V c 6 t) = m2 (φ := .bf16) (V c main_v1) := funext fun a => funext fun b => whole3_6 V c t a b
  have hKi : m2 (φ := .bf16) (iblk3 V c 7 t) = m2 (φ := .bf16) (V c main_v5) := funext fun a => funext fun b => whole3_7 V c t a b
  have hVu : m2 (φ := .bf16) (iblk3 V c 8 t) = m2 (φ := .bf16) (V c main_v3) := funext fun a => funext fun b => whole3_8 V c t a b
  exact outp_congr _ _ _ _ _ _ _ _ _ _ p _ x _ hQu hQi hKu hKi hVu hcol.symm

/-- An index of the attention array is in point t's block iff each coordinate is in the block's range on its axis. -/
theorem mem_blk3_10 (t : Fin cfg3.N) (i : S4096x4096.Idx) :
    i ∈ ((cfg3.win 10).blk t).view.set ↔ ∀ a : Fin 2, win3_10.index t a * S256x4096.size a ≤ (i a).val ∧ (i a).val < win3_10.index t a * S256x4096.size a + S256x4096.size a := by
  show i ∈ ((View.whole main_v8_1).slice (win3_10.rect t)).set ↔ _
  rw [View.set_slice_whole, Rect.mem_set_unit]
  exact Iff.rfl

theorem mem_blk3_9 (t : Fin cfg3.N) (i : S4096x512.Idx) :
    i ∈ ((cfg3.win 9).blk t).view.set ↔ ∀ a : Fin 2, win3_9.index t a * S256x512.size a ≤ (i a).val ∧ (i a).val < win3_9.index t a * S256x512.size a + S256x512.size a := by
  show i ∈ ((View.whole main_v8_0).slice (win3_9.rect t)).set ↔ _
  rw [View.set_slice_whole, Rect.mem_set_unit]
  exact Iff.rfl

/-- The attention blocks cover the array: row r is in the block of point r / 256. -/
theorem cover3_10' (i : S4096x4096.Idx) : ∃ t : Fin cfg3.N, (cfg3.win 10).flush t = true ∧ i ∈ ((cfg3.win 10).blk t).view.set := by
  have hi0 : (i 0).val < 4096 := (i 0).isLt
  have hi1 : (i 1).val < 4096 := (i 1).isLt
  obtain ⟨t, ht⟩ := onto3_10 ⟨(i 0).val / 256, by omega⟩
  have q0 : win3_10.index t (0 : Fin 2) = (i 0).val / 256 := congrFun ht 0
  have q1 : win3_10.index t (1 : Fin 2) = 0 := congrFun ht 1
  refine ⟨t, flush3_10 t, ?_⟩
  rw [mem_blk3_10]
  intro a
  match a with
  | ⟨0, _⟩ => show win3_10.index t (0 : Fin 2) * 256 ≤ (i 0).val ∧ (i 0).val < win3_10.index t (0 : Fin 2) * 256 + 256; omega
  | ⟨1, _⟩ => show win3_10.index t (1 : Fin 2) * 4096 ≤ (i 1).val ∧ (i 1).val < win3_10.index t (1 : Fin 2) * 4096 + 4096; omega

/-- The output blocks cover the array likewise. -/
theorem cover3_9' (i : S4096x512.Idx) : ∃ t : Fin cfg3.N, (cfg3.win 9).flush t = true ∧ i ∈ ((cfg3.win 9).blk t).view.set := by
  have hi0 : (i 0).val < 4096 := (i 0).isLt
  have hi1 : (i 1).val < 512 := (i 1).isLt
  obtain ⟨t, ht⟩ := onto3_9 ⟨(i 0).val / 256, by omega⟩
  have q0 : win3_9.index t (0 : Fin 2) = (i 0).val / 256 := congrFun ht 0
  have q1 : win3_9.index t (1 : Fin 2) = 0 := congrFun ht 1
  refine ⟨t, flush3_9 t, ?_⟩
  rw [mem_blk3_9]
  intro a
  match a with
  | ⟨0, _⟩ => show win3_9.index t (0 : Fin 2) * 256 ≤ (i 0).val ∧ (i 0).val < win3_9.index t (0 : Fin 2) * 256 + 256; omega
  | ⟨1, _⟩ => show win3_9.index t (1 : Fin 2) * 512 ≤ (i 1).val ∧ (i 1).val < win3_9.index t (1 : Fin 2) * 512 + 512; omega

/-- The attention array after the region. -/
theorem final3_10 (c : Dev nD) : (dat3 V c).arrAt 10 cfg3.N
    = attnArr (V c main_arg0) (V c main_arg3) (V c main_arg5) (V c main_v6) (V c main_arg11) (V c main_v7) (V c main_v1) (V c main_v5) :=
  (dat3 V c).arrAt_eq_of_cover 10 _ (fun t _ => flushed3_10 V c t) (cover3_10')

/-- The output array after the region. -/
theorem final3_9 (c : Dev nD) : (dat3 V c).arrAt 9 cfg3.N
    = outArr (V c main_arg0) (V c main_arg3) (V c main_arg5) (V c main_v6) (V c main_arg11) (V c main_v7) (V c main_v1) (V c main_v5) (V c main_v3) :=
  (dat3 V c).arrAt_eq_of_cover 9 _ (fun t _ => flushed3_9 V c t) (cover3_9')

end Cert.KernelIdeal.Val

end
-- ==== Proof.KValue.lean ====
/-
  The kernel program's two results as functions of the launch memory's fifteen argument arrays.

  The attention region's result arrays are the attention and output arrays of the contents it is entered from; walked
  back to the launch memory those are the raw queries and weights, the reshaped bias vectors, and the three projected
  arrays the projection regions left.  A reshaped bias vector read along its one row is the vector, and a projected
  array read at a row and a column is the dense layer's entry, so both results are the specification's functions of the
  arguments.
-/
import proofs.«114069_j30047591203213_2_alg».proof.Proof.KRun
import proofs.«114069_j30047591203213_2_alg».proof.Proof.KWalk
import proofs.«114069_j30047591203213_2_alg».proof.Proof.KReg3

set_option maxRecDepth 16384

noncomputable section

namespace Cert.Spec

open Idealize.ShloMosaic Idealize.ShloMosaic.ValueIdx

/-- The blended attention weights as a function of the twelve argument arrays they depend on: user queries x0 with
    weights x5 and bias x6, user keys x1 (x7, x8), item queries x3 (x11, x12), item keys x4 (x13, x14). -/
def attnFinal (x0 x1 x3 x4 : FVec Ideal ⟨2, ![4096, 512]⟩ .f32) (x5 : FVec Ideal ⟨2, ![512, 512]⟩ .f32) (x6 : FVec Ideal ⟨1, ![512]⟩ .f32)
    (x7 : FVec Ideal ⟨2, ![512, 512]⟩ .f32) (x8 : FVec Ideal ⟨1, ![512]⟩ .f32) (x11 : FVec Ideal ⟨2, ![512, 512]⟩ .f32) (x12 : FVec Ideal ⟨1, ![512]⟩ .f32)
    (x13 : FVec Ideal ⟨2, ![512, 512]⟩ .f32) (x14 : FVec Ideal ⟨1, ![512]⟩ .f32) : (⟨2, ![4096, 4096]⟩ : Shape).Idx → EReal :=
  arr2 (attn (dense (m2 x0) (m2 x5) (v1 x6)) (dense (m2 x3) (m2 x11) (v1 x12)) (dense (m2 x1) (m2 x7) (v1 x8)) (dense (m2 x4) (m2 x13) (v1 x14)))

/-- The attention output as a function of all fifteen argument arrays: the weights above against the user values x2
    (x9, x10). -/
def outFinal (x0 x1 x2 x3 x4 : FVec Ideal ⟨2, ![4096, 512]⟩ .f32) (x5 : FVec Ideal ⟨2, ![512, 512]⟩ .f32) (x6 : FVec Ideal ⟨1, ![512]⟩ .f32)
    (x7 : FVec Ideal ⟨2, ![512, 512]⟩ .f32) (x8 : FVec Ideal ⟨1, ![512]⟩ .f32) (x9 : FVec Ideal ⟨2, ![512, 512]⟩ .f32) (x10 : FVec Ideal ⟨1, ![512]⟩ .f32)
    (x11 : FVec Ideal ⟨2, ![512, 512]⟩ .f32) (x12 : FVec Ideal ⟨1, ![512]⟩ .f32)
    (x13 : FVec Ideal ⟨2, ![512, 512]⟩ .f32) (x14 : FVec Ideal ⟨1, ![512]⟩ .f32) : (⟨2, ![4096, 512]⟩ : Shape).Idx → EReal :=
  arr2 (outp (dense (m2 x0) (m2 x5) (v1 x6)) (dense (m2 x3) (m2 x11) (v1 x12)) (dense (m2 x1) (m2 x7) (v1 x8)) (dense (m2 x4) (m2 x13) (v1 x14))
    (dense (m2 x2) (m2 x9) (v1 x10)))

end Cert.Spec

namespace Cert.KernelIdeal.Val

open Idealize.ShloMosaic Idealize.ShloMosaic.TcCoe Idealize.ShloMosaic.ValueIdx Idealize.SL.Sem
open Cert.KernelIdeal Cert.KernelIdeal.Gen Cert.Spec

/-- A reshaped bias vector read along its one row is the vector. -/
theorem row1_biasRow (b : FVec Ideal S512 .f32) : row1 (biasRow b) = v1 b :=
  funext fun k => shapeCast_a_1a_apply b shapeCasts_S512_S1x512 (0 : Fin 1) k

/-- A projected array read at a row and a column is the dense layer's entry. -/
theorem m2_projArr (X : FVec Ideal S4096x512 .f32) (W : FVec Ideal S512x512 .f32) (b : FVec Ideal S512 .f32) :
    m2 (projArr X W (biasRow b)) = dense (m2 X) (m2 W) (v1 b) := by
  rw [← row1_biasRow]; rfl

variable (m : (ℓ : Loc nD τ sig) → Buf (Elt Ideal) ℓ) (ρ : Dev nD → PrngReg)

/-- The attention result, from the launch memory. -/
theorem result_attn (c : Dev nD) : W8 m ρ c (Proc.devRef .tc main_v8_1)
    = attnFinal (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) := by
  refine (W8_arr m ρ c 10).trans ((final3_10 (V7 m ρ) c).trans ?_)
  show attnArr (W7 m ρ c (Proc.devRef .tc main_arg0)) (W7 m ρ c (Proc.devRef .tc main_arg3)) (W7 m ρ c (Proc.devRef .tc main_arg5))
      (W7 m ρ c (Proc.devRef .tc main_v6)) (W7 m ρ c (Proc.devRef .tc main_arg11)) (W7 m ρ c (Proc.devRef .tc main_v7))
      (W7 m ρ c (Proc.devRef .tc main_v1)) (W7 m ρ c (Proc.devRef .tc main_v5)) = _
  rw [arg7 m ρ c main_arg0 (by decide) (by decide) (by decide) (by decide) (by decide) (by decide) (by decide) (by decide),
    arg7 m ρ c main_arg3 (by decide) (by decide) (by decide) (by decide) (by decide) (by decide) (by decide) (by decide),
    arg7 m ρ c main_arg5 (by decide) (by decide) (by decide) (by decide) (by decide) (by decide) (by decide) (by decide),
    arg7 m ρ c main_arg11 (by decide) (by decide) (by decide) (by decide) (by decide) (by decide) (by decide) (by decide),
    bias7u, bias7i, keysUser7, keysItem7]
  unfold attnArr attnFinal
  rw [m2_projArr, m2_projArr, row1_biasRow, row1_biasRow]

/-- The output result, from the launch memory. -/
theorem result_out (c : Dev nD) : W8 m ρ c (Proc.devRef .tc main_v8_0)
    = outFinal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 9).trans ((final3_9 (V7 m ρ) c).trans ?_)
  show outArr (W7 m ρ c (Proc.devRef .tc main_arg0)) (W7 m ρ c (Proc.devRef .tc main_arg3)) (W7 m ρ c (Proc.devRef .tc main_arg5))
      (W7 m ρ c (Proc.devRef .tc main_v6)) (W7 m ρ c (Proc.devRef .tc main_arg11)) (W7 m ρ c (Proc.devRef .tc main_v7))
      (W7 m ρ c (Proc.devRef .tc main_v1)) (W7 m ρ c (Proc.devRef .tc main_v5)) (W7 m ρ c (Proc.devRef .tc main_v3)) = _
  rw [arg7 m ρ c main_arg0 (by decide) (by decide) (by decide) (by decide) (by decide) (by decide) (by decide) (by decide),
    arg7 m ρ c main_arg3 (by decide) (by decide) (by decide) (by decide) (by decide) (by decide) (by decide) (by decide),
    arg7 m ρ c main_arg5 (by decide) (by decide) (by decide) (by decide) (by decide) (by decide) (by decide) (by decide),
    arg7 m ρ c main_arg11 (by decide) (by decide) (by decide) (by decide) (by decide) (by decide) (by decide) (by decide),
    bias7u, bias7i, keysUser7, keysItem7, valuesUser7]
  unfold outArr outFinal
  rw [m2_projArr, m2_projArr, m2_projArr, row1_biasRow, row1_biasRow]

/-- The kernel program's run with both results at the specification's functions of the arguments. -/
theorem run_value : θ_run defs (onTc (τ := τ) (main (F := Ideal))) ⟨m, fun _ => 0, ρ⟩ (fun r => ∀ c : Dev nD,
      r.2.mem ((c.tc : Thread nD τ).loc main_v8_0)
        = outFinal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_v8_1)
        = attnFinal (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_out m ρ c), (h c).2.1.trans (result_attn m ρ c), (h c).2.2⟩) (run_results m ρ)

end Cert.KernelIdeal.Val

end
-- ==== Proof.RefSide.lean ====
/-
  The reference program, read entry by entry, is the specification.

  Each of its five dense stages has entry (r, c) equal to the r-th input row against the c-th weight column plus the
  c-th bias; each score stage has entry (r, j) equal to the r-th query row against the j-th key row, contracted over
  the feature axis and divided by the scale; the maximum of a score row folded from −∞ is the row's maximum, because
  max ⊥ x = x; the exponentials of the entries minus that maximum, summed from zero along the row, give the softmax
  denominator; the two softmaxes, weighted and added, are the blended attention weights; and the final contraction of
  the weights with the projected values is the attention output.  Both sides of every equation are the same
  expression over the extended reals: no finiteness or rounding fact is used.
-/
import proofs.«114069_j30047591203213_2_alg».proof.Proof.Spec
import proofs.«114069_j30047591203213_2_alg».proof.Proof.Gen.ReferenceIdeal.Read
import proofs.«114069_j30047591203213_2_alg».proof.Proof.LibRowMax

noncomputable section

namespace Cert.RefSide

open Cert.ReferenceIdeal Cert.ReferenceIdeal.Gen Cert.ReferenceIdeal.Read Cert.Spec Idealize.ShloMosaic Idealize.ShloMosaic.ValueIdx

/-- The three kinds of argument: a 4096 × 512 input, a 512 × 512 weight, a bias of length 512. -/
abbrev TA := (⟨S4096x512, .f32⟩ : BufTy).Contents (Elt Ideal)
abbrev TW := (⟨S512x512, .f32⟩ : BufTy).Contents (Elt Ideal)
abbrev TB := (⟨S512, .f32⟩ : BufTy).Contents (Elt Ideal)

/-- The pattern of −∞ denotes the bottom of the extended reals. -/
theorem negInf : Ideal.ofBits .f32 0xFF800000#32 = ⊥ := by simp [Ideal.ofBits, Ideal.ieee]

/-! ## The dense stages -/

theorem lidx_v0 (r : Fin 4096) (c k : Fin 512) : lidx_main_v0 (ix2 r c) k = ix2 r k := by
  funext a; match a with | ⟨0, _⟩ => rfl | ⟨1, _⟩ => rfl

theorem ridx_v0 (r : Fin 4096) (c k : Fin 512) : ridx_main_v0 (ix2 r c) k = ix2 k c := by
  funext a; match a with | ⟨0, _⟩ => rfl | ⟨1, _⟩ => rfl

theorem bidx_v2 (r : Fin 4096) (c : Fin 512) : idx_main_v1 (idx_main_v2 (ix2 r c)) = ix1 c := by
  funext a; match a with | ⟨0, _⟩ => rfl

/-- The user-query projection at (r, c) is the dense layer's entry. -/
theorem dense_v3 (x0 : TA) (x5 : TW) (x6 : TB) (r : Fin 4096) (c : Fin 512) :
    val_main_v3 (F := Ideal) x0 x5 x6 (ix2 r c) = dense (m2 (φ := .f32) x0) (m2 (φ := .f32) x5) (v1 (φ := .f32) x6) r c := by
  rw [val_main_v3_apply, val_main_v0_apply, val_main_v2_apply, val_main_v1_apply, bidx_v2]
  simp only [lidx_v0, ridx_v0]
  rfl

/-- The other four projections are the same stage on other arguments. -/
theorem dense_v7 (x1 : TA) (x7 : TW) (x8 : TB) (r : Fin 4096) (c : Fin 512) :
    val_main_v7 (F := Ideal) x1 x7 x8 (ix2 r c) = dense (m2 (φ := .f32) x1) (m2 (φ := .f32) x7) (v1 (φ := .f32) x8) r c :=
  dense_v3 x1 x7 x8 r c

theorem dense_v11 (x2 : TA) (x9 : TW) (x10 : TB) (r : Fin 4096) (c : Fin 512) :
    val_main_v11 (F := Ideal) x2 x9 x10 (ix2 r c) = dense (m2 (φ := .f32) x2) (m2 (φ := .f32) x9) (v1 (φ := .f32) x10) r c :=
  dense_v3 x2 x9 x10 r c

theorem dense_v15 (x3 : TA) (x11 : TW) (x12 : TB) (r : Fin 4096) (c : Fin 512) :
    val_main_v15 (F := Ideal) x3 x11 x12 (ix2 r c) = dense (m2 (φ := .f32) x3) (m2 (φ := .f32) x11) (v1 (φ := .f32) x12) r c :=
  dense_v3 x3 x11 x12 r c

theorem dense_v19 (x4 : TA) (x13 : TW) (x14 : TB) (r : Fin 4096) (c : Fin 512) :
    val_main_v19 (F := Ideal) x4 x13 x14 (ix2 r c) = dense (m2 (φ := .f32) x4) (m2 (φ := .f32) x13) (v1 (φ := .f32) x14) r c :=
  dense_v3 x4 x13 x14 r c

/-! ## The user softmax -/

theorem lidx_v20 (r j : Fin 4096) (k : Fin 512) : lidx_main_v20 (ix2 r j) k = ix2 r k := by
  funext a; match a with | ⟨0, _⟩ => rfl | ⟨1, _⟩ => rfl

theorem ridx_v20 (r j : Fin 4096) (k : Fin 512) : ridx_main_v20 (ix2 r j) k = ix2 j k := by
  funext a; match a with | ⟨0, _⟩ => rfl | ⟨1, _⟩ => rfl

/-- The user score at (r, j): query row r against key row j, over the scale. -/
theorem score_v22 (x0 x1 : TA) (x5 : TW) (x6 : TB) (x7 : TW) (x8 : TB) (r j : Fin 4096) :
    val_main_v22 (F := Ideal) x0 x1 x5 x6 x7 x8 (ix2 r j)
      = score (dense (m2 (φ := .f32) x0) (m2 (φ := .f32) x5) (v1 (φ := .f32) x6) r)
          (dense (m2 (φ := .f32) x1) (m2 (φ := .f32) x7) (v1 (φ := .f32) x8)) j := by
  rw [val_main_v22_apply, val_main_v20_apply, val_main_v21_apply, val_main_cst_apply, Ideal.hostDivf_def, Ideal.ofBits_def]
  simp only [lidx_v20, ridx_v20, dense_v3, dense_v7]
  rfl

/-- The maximum stage at row r: folding from −∞, then taking the maximum with −∞ once more, is the row's maximum. -/
theorem rowmax_v25 (x0 x1 : TA) (x5 : TW) (x6 : TB) (x7 : TW) (x8 : TB) (r : Fin 4096) :
    val_main_v25 (F := Ideal) x0 x1 x5 x6 x7 x8 (ix1 r)
      = rowmax (fun j => val_main_v22 (F := Ideal) x0 x1 x5 x6 x7 x8 (ix2 r j)) := by
  rw [val_main_v25_apply, val_main_v24_apply, val_main_cst_1_apply, Ideal.maximumf_def, Ideal.ofBits_def, negInf]
  unfold val_main_v23
  rw [Cert.LibRowMax.hostReduceMax_row _ _ reducesTo_S4096x4096_S4096_d1 (by decide) h_S_ r, val_main_cst_0_apply,
    Ideal.ofBits_def, negInf]
  exact max_eq_right bot_le

theorem bidx_v27 (r j : Fin 4096) : idx_main_v26 (idx_main_v27 (ix2 r j)) = ix1 r := by
  funext a; match a with | ⟨0, _⟩ => rfl

/-- The exponential stage at (r, j): the exponential of the score minus its row's maximum. -/
theorem exp_v29 (x0 x1 : TA) (x5 : TW) (x6 : TB) (x7 : TW) (x8 : TB) (r j : Fin 4096) :
    val_main_v29 (F := Ideal) x0 x1 x5 x6 x7 x8 (ix2 r j)
      = Ideal.exp (val_main_v22 (F := Ideal) x0 x1 x5 x6 x7 x8 (ix2 r j)
          - rowmax (fun k => val_main_v22 (F := Ideal) x0 x1 x5 x6 x7 x8 (ix2 r k))) := by
  rw [val_main_v29_apply, val_main_v28_apply, val_main_v27_apply, val_main_v26_apply, bidx_v27, rowmax_v25,
    Ideal.hostUnary_exp_def, Ideal.subf_def]

theorem idx_v30 (r k : Fin 4096) : idx_main_v30 (ix1 r) k = ix2 r k := by
  funext a; match a with | ⟨0, _⟩ => rfl | ⟨1, _⟩ => rfl

/-- The sum stage at row r: summing from zero is the sum of the row's exponentials. -/
theorem sum_v30 (x0 x1 : TA) (x5 : TW) (x6 : TB) (x7 : TW) (x8 : TB) (r : Fin 4096) :
    val_main_v30 (F := Ideal) x0 x1 x5 x6 x7 x8 (ix1 r)
      = ∑ k : Fin 4096, val_main_v29 (F := Ideal) x0 x1 x5 x6 x7 x8 (ix2 r k) := by
  rw [val_main_v30_apply, val_main_cst_2_apply, Ideal.ofBits_def, Ideal.ofBits_zero_f32, zero_add]
  simp only [idx_v30]

theorem bidx_v32 (r j : Fin 4096) : idx_main_v31 (idx_main_v32 (ix2 r j)) = ix1 r := by
  funext a; match a with | ⟨0, _⟩ => rfl

/-- The quotient stage at (r, j) is the softmax of the user score row r at column j. -/
theorem smax_v33 (x0 x1 : TA) (x5 : TW) (x6 : TB) (x7 : TW) (x8 : TB) (r j : Fin 4096) :
    val_main_v33 (F := Ideal) x0 x1 x5 x6 x7 x8 (ix2 r j)
      = smax (score (dense (m2 (φ := .f32) x0) (m2 (φ := .f32) x5) (v1 (φ := .f32) x6) r)
          (dense (m2 (φ := .f32) x1) (m2 (φ := .f32) x7) (v1 (φ := .f32) x8))) j := by
  rw [val_main_v33_apply, val_main_v32_apply, val_main_v31_apply, bidx_v32, sum_v30, Ideal.hostDivf_def]
  simp only [exp_v29, score_v22]
  rfl

/-! ## The item softmax -/

theorem lidx_v34 (r j : Fin 4096) (k : Fin 512) : lidx_main_v34 (ix2 r j) k = ix2 r k := by
  funext a; match a with | ⟨0, _⟩ => rfl | ⟨1, _⟩ => rfl

theorem ridx_v34 (r j : Fin 4096) (k : Fin 512) : ridx_main_v34 (ix2 r j) k = ix2 j k := by
  funext a; match a with | ⟨0, _⟩ => rfl | ⟨1, _⟩ => rfl

/-- The item score at (r, j): query row r against key row j, over the scale. -/
theorem score_v36 (x3 x4 : TA) (x11 : TW) (x12 : TB) (x13 : TW) (x14 : TB) (r j : Fin 4096) :
    val_main_v36 (F := Ideal) x3 x4 x11 x12 x13 x14 (ix2 r j)
      = score (dense (m2 (φ := .f32) x3) (m2 (φ := .f32) x11) (v1 (φ := .f32) x12) r)
          (dense (m2 (φ := .f32) x4) (m2 (φ := .f32) x13) (v1 (φ := .f32) x14)) j := by
  rw [val_main_v36_apply, val_main_v34_apply, val_main_v35_apply, val_main_cst_3_apply, Ideal.hostDivf_def, Ideal.ofBits_def]
  simp only [lidx_v34, ridx_v34, dense_v15, dense_v19]
  rfl

/-- The maximum stage at row r: folding from −∞, then taking the maximum with −∞ once more, is the row's maximum. -/
theorem rowmax_v39 (x3 x4 : TA) (x11 : TW) (x12 : TB) (x13 : TW) (x14 : TB) (r : Fin 4096) :
    val_main_v39 (F := Ideal) x3 x4 x11 x12 x13 x14 (ix1 r)
      = rowmax (fun j => val_main_v36 (F := Ideal) x3 x4 x11 x12 x13 x14 (ix2 r j)) := by
  rw [val_main_v39_apply, val_main_v38_apply, val_main_cst_5_apply, Ideal.maximumf_def, Ideal.ofBits_def, negInf]
  unfold val_main_v37
  rw [Cert.LibRowMax.hostReduceMax_row _ _ reducesTo_S4096x4096_S4096_d1 (by decide) h_S_ r, val_main_cst_4_apply,
    Ideal.ofBits_def, negInf]
  exact max_eq_right bot_le

theorem bidx_v41 (r j : Fin 4096) : idx_main_v40 (idx_main_v41 (ix2 r j)) = ix1 r := by
  funext a; match a with | ⟨0, _⟩ => rfl

/-- The exponential stage at (r, j): the exponential of the score minus its row's maximum. -/
theorem exp_v43 (x3 x4 : TA) (x11 : TW) (x12 : TB) (x13 : TW) (x14 : TB) (r j : Fin 4096) :
    val_main_v43 (F := Ideal) x3 x4 x11 x12 x13 x14 (ix2 r j)
      = Ideal.exp (val_main_v36 (F := Ideal) x3 x4 x11 x12 x13 x14 (ix2 r j)
          - rowmax (fun k => val_main_v36 (F := Ideal) x3 x4 x11 x12 x13 x14 (ix2 r k))) := by
  rw [val_main_v43_apply, val_main_v42_apply, val_main_v41_apply, val_main_v40_apply, bidx_v41, rowmax_v39,
    Ideal.hostUnary_exp_def, Ideal.subf_def]

theorem idx_v44 (r k : Fin 4096) : idx_main_v44 (ix1 r) k = ix2 r k := by
  funext a; match a with | ⟨0, _⟩ => rfl | ⟨1, _⟩ => rfl

/-- The sum stage at row r: summing from zero is the sum of the row's exponentials. -/
theorem sum_v44 (x3 x4 : TA) (x11 : TW) (x12 : TB) (x13 : TW) (x14 : TB) (r : Fin 4096) :
    val_main_v44 (F := Ideal) x3 x4 x11 x12 x13 x14 (ix1 r)
      = ∑ k : Fin 4096, val_main_v43 (F := Ideal) x3 x4 x11 x12 x13 x14 (ix2 r k) := by
  rw [val_main_v44_apply, val_main_cst_6_apply, Ideal.ofBits_def, Ideal.ofBits_zero_f32, zero_add]
  simp only [idx_v44]

theorem bidx_v46 (r j : Fin 4096) : idx_main_v45 (idx_main_v46 (ix2 r j)) = ix1 r := by
  funext a; match a with | ⟨0, _⟩ => rfl

/-- The quotient stage at (r, j) is the softmax of the item score row r at column j. -/
theorem smax_v47 (x3 x4 : TA) (x11 : TW) (x12 : TB) (x13 : TW) (x14 : TB) (r j : Fin 4096) :
    val_main_v47 (F := Ideal) x3 x4 x11 x12 x13 x14 (ix2 r j)
      = smax (score (dense (m2 (φ := .f32) x3) (m2 (φ := .f32) x11) (v1 (φ := .f32) x12) r)
          (dense (m2 (φ := .f32) x4) (m2 (φ := .f32) x13) (v1 (φ := .f32) x14))) j := by
  rw [val_main_v47_apply, val_main_v46_apply, val_main_v45_apply, bidx_v46, sum_v44, Ideal.hostDivf_def]
  simp only [exp_v43, score_v36]
  rfl

/-! ## The blend and the output -/

/-- The blended stage at (r, j) is the attention weight of query row r on key row j. -/
theorem blend_v52 (x0 x1 x3 x4 : TA) (x5 : TW) (x6 : TB) (x7 : TW) (x8 : TB) (x11 : TW) (x12 : TB) (x13 : TW) (x14 : TB)
    (r j : Fin 4096) :
    val_main_v52 (F := Ideal) x0 x1 x3 x4 x5 x6 x7 x8 x11 x12 x13 x14 (ix2 r j)
      = attn (dense (m2 (φ := .f32) x0) (m2 (φ := .f32) x5) (v1 (φ := .f32) x6))
          (dense (m2 (φ := .f32) x3) (m2 (φ := .f32) x11) (v1 (φ := .f32) x12))
          (dense (m2 (φ := .f32) x1) (m2 (φ := .f32) x7) (v1 (φ := .f32) x8))
          (dense (m2 (φ := .f32) x4) (m2 (φ := .f32) x13) (v1 (φ := .f32) x14)) r j := by
  rw [val_main_v52_apply, val_main_v49_apply, val_main_v51_apply, val_main_v48_apply, val_main_v50_apply,
    val_main_cst_7_apply, val_main_cst_8_apply, smax_v33, smax_v47, Ideal.addf_def, Ideal.mulf_def, Ideal.mulf_def,
    Ideal.ofBits_def, Ideal.ofBits_def]
  rfl

/-- The reference's attention weights are the specification's, as an array. -/
theorem attn_eq (x0 x1 x3 x4 : (⟨S4096x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) :
    Cert.ReferenceIdeal.Read.val_main_v52 (F := Ideal) x0 x1 x3 x4 x5 x6 x7 x8 x11 x12 x13 x14
      = Cert.Spec.arr2 (Cert.Spec.attn (Cert.Spec.dense (m2 (φ := .f32) x0) (m2 (φ := .f32) x5) (v1 (φ := .f32) x6))
          (Cert.Spec.dense (m2 (φ := .f32) x3) (m2 (φ := .f32) x11) (v1 (φ := .f32) x12))
          (Cert.Spec.dense (m2 (φ := .f32) x1) (m2 (φ := .f32) x7) (v1 (φ := .f32) x8))
          (Cert.Spec.dense (m2 (φ := .f32) x4) (m2 (φ := .f32) x13) (v1 (φ := .f32) x14))) :=
  ext2 (a := 4096) (b := 4096) fun r j => (blend_v52 x0 x1 x3 x4 x5 x6 x7 x8 x11 x12 x13 x14 r j).trans (arr2_ix2 _ r j).symm

theorem lidx_v53 (r k : Fin 4096) (c : Fin 512) : lidx_main_v53 (ix2 r c) k = ix2 r k := by
  funext a; match a with | ⟨0, _⟩ => rfl | ⟨1, _⟩ => rfl

theorem ridx_v53 (r k : Fin 4096) (c : Fin 512) : ridx_main_v53 (ix2 r c) k = ix2 k c := by
  funext a; match a with | ⟨0, _⟩ => rfl | ⟨1, _⟩ => rfl

/-- The reference's output is the specification's, as an array: row r of the weights against column c of the
    projected values. -/
theorem out_eq (x0 x1 x2 x3 x4 : (⟨S4096x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) :
    Cert.ReferenceIdeal.Read.val_main_v53 (F := Ideal) x0 x1 x2 x3 x4 x5 x6 x7 x8 x9 x10 x11 x12 x13 x14
      = Cert.Spec.arr2 (Cert.Spec.outp (Cert.Spec.dense (m2 (φ := .f32) x0) (m2 (φ := .f32) x5) (v1 (φ := .f32) x6))
          (Cert.Spec.dense (m2 (φ := .f32) x3) (m2 (φ := .f32) x11) (v1 (φ := .f32) x12))
          (Cert.Spec.dense (m2 (φ := .f32) x1) (m2 (φ := .f32) x7) (v1 (φ := .f32) x8))
          (Cert.Spec.dense (m2 (φ := .f32) x4) (m2 (φ := .f32) x13) (v1 (φ := .f32) x14))
          (Cert.Spec.dense (m2 (φ := .f32) x2) (m2 (φ := .f32) x9) (v1 (φ := .f32) x10))) := by
  refine ext2 (a := 4096) (b := 512) fun r c => ?_
  rw [val_main_v53_apply, arr2_ix2]
  simp only [lidx_v53, ridx_v53, blend_v52, dense_v11]
  rfl

end Cert.RefSide

end
-- ==== Proof.lean ====
/-
  Dual softmax attention with fused projections, kernel against reference, over the extended reals.

  Both programs project five inputs through dense layers, score user queries against user keys and item queries
  against item keys, divide the scores by the scale, take the softmax of every score row, blend the two softmaxes with
  fixed weights, and multiply the blend into the projected user values; they return that product and the blend.  The
  kernel does it in four pipelined regions (three projections in blocks of 512 rows; the attention in blocks of 256
  query rows, with the query projections fused in), rounds to half precision on the way into each matrix product, and
  multiplies the scores by the reciprocal of the scale where the reference divides.  On the extended reals a rounding is
  the identity, a blocked matrix product is the whole product read at its rows, and multiplying by the reciprocal of a
  nonzero real is dividing by it at every extended real, infinities included: the two programs compute one function of
  their arguments, entry by entry, and no finiteness of the inputs is used.  The kernel's reciprocal is a named
  constant whose value the certificate's table states; that is the one statement the idealization owes.
-/
import proofs.«114069_j30047591203213_2_alg».proof.Defs
import proofs.«114069_j30047591203213_2_alg».proof.Proof.Gen.Kernel
import proofs.«114069_j30047591203213_2_alg».proof.Proof.Gen.Kernel.Frame
import proofs.«114069_j30047591203213_2_alg».proof.Proof.Gen.KernelIdeal
import proofs.«114069_j30047591203213_2_alg».proof.Proof.Gen.KernelIdeal.Frame
import proofs.«114069_j30047591203213_2_alg».proof.Proof.Gen.ReferenceIdeal
import proofs.«114069_j30047591203213_2_alg».proof.Proof.Gen.Pre_finite_inputs
import proofs.«114069_j30047591203213_2_alg».proof.Proof.Gen.ReferenceIdeal.Run
import proofs.«114069_j30047591203213_2_alg».proof.Proof.Gen.ReferenceIdeal.Read
import proofs.«114069_j30047591203213_2_alg».proof.Proof.KValue
import proofs.«114069_j30047591203213_2_alg».proof.Proof.RefSide
import Idealize.ShloMosaic.Adequacy
import Idealize.ShloMosaic.Init

noncomputable section

namespace Cert.Proof

open Idealize.ShloMosaic Idealize.SL.Sem

/-- The three frames: the two kernel programs' by their launch-and-regions runs, the reference's by its run with the
    results dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization's two rewrites are one: the reciprocal of the scale, named at both of its uses, denotes
    524288 / 11863283 by the certificate's table. -/
theorem preserves : Cert.preserves_Kernel_KernelIdeal :=
  ⟨IdealRules.named_const.statement Cert.KernelIdeal.κ "inv_scale" .f32 0x3D3504F3#32 ((524288 / 11863283 : ℝ) : EReal) rfl,
   IdealRules.named_const.statement Cert.KernelIdeal.κ "inv_scale" .f32 0x3D3504F3#32 ((524288 / 11863283 : ℝ) : EReal) rfl⟩

/-- From memories that agree on the fifteen arguments both programs end with the attention output and the blended
    weights at the same functions of those arguments. -/
theorem algebraic : Cert.algebraic_KernelIdeal_ReferenceIdeal := by
  intro m ρ m' ρ' _ hagree
  refine ⟨_, _, Cert.KernelIdeal.Val.run_value m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨(h c).1.trans ?_, (h c).2.1.trans ?_, (h c).2.2⟩
  · rw [Cert.ReferenceIdeal.Read.val_main_v53_eq, Cert.RefSide.out_eq, a0, a1, a2, a3, a4, a5, a6, a7, a8, a9, a10, a11, a12, a13, a14]
    rfl
  · rw [Cert.ReferenceIdeal.Read.val_main_v52_eq, Cert.RefSide.attn_eq, a0, a1, a3, a4, a5, a6, a7, a8, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
